-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S4096x1 : Shape := ⟨2, ![4096, 1]⟩
abbrev S1x4096 : Shape := ⟨2, ![1, 4096]⟩
abbrev S1024x2048 : Shape := ⟨2, ![1024, 2048]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 8
  | .vmem => 23
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S8192x1, .f32⟩
  | .hbm, ⟨4, _⟩ => ⟨S4096x4096, .bf16⟩
  | .hbm, ⟨5, _⟩ => ⟨S4096x1, .f32⟩
  | .hbm, ⟨6, _⟩ => ⟨S1x4096, .f32⟩
  | .hbm, ⟨7, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S256x1, .f32⟩
  | .local _ .vmem, ⟨11, _⟩ => ⟨S256x1, .f32⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x1, .f32⟩
  | .local _ .vmem, ⟨17, _⟩ => ⟨S1024x1, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![8, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  transposes_S4096x1_S1x4096_1_0 : S4096x1.Transposes [1, 0] S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x4096.size a
  hwx2_0 : ∀ i : grid2.Coords, EltTy.bits .bf16 = 32 ∨ (Rect.block (s := S8192x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S4096x4096.size a
  hwx2_1 : ∀ i : grid2.Coords, EltTy.bits .bf16 = 32 ∨ (Rect.block (s := S4096x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x4096.size a
  hwx2_3 : ∀ i : grid2.Coords, EltTy.bits .f32 = 32 ∨ (Rect.block (s := S1x4096) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x4096.size a
  hwx2_4 : ∀ i : grid2.Coords, EltTy.bits .f32 = 32 ∨ (Rect.block (s := S8192x4096) S1024x1024.size (cc2_transform_4 i) (hinb2_4 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S256x4096.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S1x4096 : Shape := ⟨2, ![1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S1x4096, .f32⟩
  | .hbm, ⟨48, _⟩ => ⟨S8192x4096, .f32⟩
  | .hbm, ⟨49, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x1_S1x4096_1_0 : S4096x1.Transposes [1, 0] S1x4096
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.QuantRegionsBits.lean ====
/-
  The two quantization regions of the program, as the pipeline library asks for them: per region, what one grid
  point's body leaves in its output buffers as a function of the rows it read, the body's run, and the proof data.
  Everything is stated at a parameter `V`, the buffers' contents when the region is entered, and at any instance of
  the float operations.
-/
import proofs.«105469_j42520176230457_2_alg».proof.Proof.Gen.Kernel.Launch
import proofs.«105469_j42520176230457_2_alg».proof.Proof.Gen.Kernel.Skeleton
import proofs.«105469_j42520176230457_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The quantization kernel of pallas_call 0, at the contents `V` its region is entered with

One grid point handles 256 whole rows: it reads the rows' block, and writes the block of quantized entries and the
column of the rows' scales. Nothing is kept between points. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the rows' block at every point, for any proof data over `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body's two rectangles: the whole [256, 4096] block and the whole [256, 1] column. -/
abbrev rq0 : Rect S256x4096 := Rect.unit (s := S256x4096) ![0, 0] S256x4096.size inb_S256x4096_S256x4096_0_0
abbrev rs0 : Rect S256x1 := Rect.unit (s := S256x1) ![0, 0] S256x1.size inb_S256x1_S256x1_0_0

/-- What the body leaves in the quantized block's buffer and in the scales' buffer, from the rows' block. -/
def outq0 (x0 : Vec F S256x4096 .f32) : Vec F S256x4096 .bf16 :=
  View.canon [⟨rq0, k0_pay2 (View.ld x0 rq0)⟩]
def outs0 (x0 : Vec F S256x4096 .f32) : Vec F S256x1 .f32 :=
  View.canon [⟨rs0, k0_pay1 (View.ld x0 rq0)⟩]

/-- Each store covers its whole buffer. -/
theorem coverq0 (p0 : Vec F S256x4096 .bf16) (y : S256x4096.Idx) :
    ∃ pc ∈ ([⟨rq0, p0⟩] : List (View.Piece (Elt F) S256x4096 .bf16)), y ∈ pc.1.set :=
  View.cover_of_tiled [⟨rq0, p0⟩] S256x4096.size (by rfl) y
theorem covers0 (p0 : Vec F S256x1 .f32) (y : S256x1.Idx) :
    ∃ pc ∈ ([⟨rs0, p0⟩] : List (View.Piece (Elt F) S256x1 .f32)), y ∈ pc.1.set :=
  View.cover_of_tiled [⟨rs0, p0⟩] S256x1.size (by rfl) y

set_option maxHeartbeats 1000000 in
/-- The body on whole staging buffers, the input's at the rows `x0` and the two outputs' at anything, runs to the
    continuation with the input's as it was and the outputs' at `outq0 x0` and `outs0 x0`. -/
theorem sound_kernel0 (c : Dev nD) (E : Set ℕ) (i : grid0.Coords) (arg1 : Memref sig .tc .vmem S256x4096 .f32) (harg1 : arg1.IsWhole)
    (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outq0 x0) ∗ owns (c : Thread nD τ) arg3 fullShare (outs0 x0)) -∗ K ⟨⟩))
      ⊢ wp frame (wpE (defs₀ (F := F)) Variants.none c none) E (cc0__quant_kernel i arg1 harg1 arg2 harg2 arg3 harg3) K := by
  simp only [cc0__quant_kernel_eq_skeleton]; unfold cc0__quant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverq0 _)
  iexists _; isplitr
  swap; · iexact H2
  ipureintro
  exact View.read_writes_eq_canon _ _ _ (covers0 _)

/-- The proof data of pipeline 0: the arrays as the region finds them; after the body the input's buffer at the rows'
    block, the outputs' at the quantized block and the scales of that block; the scoped rest and the generator
    register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outq0 (iblk0 V c 0 t)
    | ⟨2, _⟩ => outs0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = outq0 (iblk0 V c 0 t) := by dsimp only [dat0]
theorem after0_2 (c : Dev nD) (t : Fin cfg0.N) : (dat0 V c).after 2 t = outs0 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds the rows' block, so the kernel's run applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # The quantization kernel of pallas_call 1, at the contents `V` its region is entered with

One grid point handles 256 whole rows: it reads the rows' block, and writes the block of quantized entries and the
column of the rows' scales. Nothing is kept between points. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the rows' block at every point, for any proof data over `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's two rectangles: the whole [256, 4096] block and the whole [256, 1] column. -/
abbrev rq1 : Rect S256x4096 := Rect.unit (s := S256x4096) ![0, 0] S256x4096.size inb_S256x4096_S256x4096_0_0
abbrev rs1 : Rect S256x1 := Rect.unit (s := S256x1) ![0, 0] S256x1.size inb_S256x1_S256x1_0_0

/-- What the body leaves in the quantized block's buffer and in the scales' buffer, from the rows' block. -/
def outq1 (x0 : Vec F S256x4096 .f32) : Vec F S256x4096 .bf16 :=
  View.canon [⟨rq1, k1_pay2 (View.ld x0 rq1)⟩]
def outs1 (x0 : Vec F S256x4096 .f32) : Vec F S256x1 .f32 :=
  View.canon [⟨rs1, k1_pay1 (View.ld x0 rq1)⟩]

/-- Each store covers its whole buffer. -/
theorem coverq1 (p0 : Vec F S256x4096 .bf16) (y : S256x4096.Idx) :
    ∃ pc ∈ ([⟨rq1, p0⟩] : List (View.Piece (Elt F) S256x4096 .bf16)), y ∈ pc.1.set :=
  View.cover_of_tiled [⟨rq1, p0⟩] S256x4096.size (by rfl) y
theorem covers1 (p0 : Vec F S256x1 .f32) (y : S256x1.Idx) :
    ∃ pc ∈ ([⟨rs1, p0⟩] : List (View.Piece (Elt F) S256x1 .f32)), y ∈ pc.1.set :=
  View.cover_of_tiled [⟨rs1, p0⟩] S256x1.size (by rfl) y

set_option maxHeartbeats 1000000 in
/-- The body on whole staging buffers, the input's at the rows `x0` and the two outputs' at anything, runs to the
    continuation with the input's as it was and the outputs' at `outq1 x0` and `outs1 x0`. -/
theorem sound_kernel1 (c : Dev nD) (E : Set ℕ) (i : grid1.Coords) (arg1 : Memref sig .tc .vmem S256x4096 .f32) (harg1 : arg1.IsWhole)
    (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outq1 x0) ∗ owns (c : Thread nD τ) arg3 fullShare (outs1 x0)) -∗ K ⟨⟩))
      ⊢ wp frame (wpE (defs₀ (F := F)) Variants.none c none) E (cc1__quant_kernel i arg1 harg1 arg2 harg2 arg3 harg3) K := by
  simp only [cc1__quant_kernel_eq_skeleton]; unfold cc1__quant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverq1 _)
  iexists _; isplitr
  swap; · iexact H2
  ipureintro
  exact View.read_writes_eq_canon _ _ _ (covers1 _)

/-- The proof data of pipeline 1: the arrays as the region finds them; after the body the input's buffer at the rows'
    block, the outputs' at the quantized block and the scales of that block; the scoped rest and the generator
    register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => outq1 (iblk1 V c 0 t)
    | ⟨2, _⟩ => outs1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = outq1 (iblk1 V c 0 t) := by dsimp only [dat1]
theorem after1_2 (c : Dev nD) (t : Fin cfg1.N) : (dat1 V c).after 2 t = outs1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's buffer holds the rows' block, so the kernel's run applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.MatmulRunsBits.lean ====
/-
  The matrix-product region of the program, as the pipeline library asks for it. Its grid is 8 x 4 x 2: the last
  coordinate walks the two halves of the contracted axis. At the first half the body clears its accumulator (a
  scratch buffer of its own, kept from one grid point to the next) and adds the half's product into it; at the second
  half it adds that half's product and stores the accumulator, rescaled by the rows' and the columns' scales, into the
  output block. So there are two control cases, the accumulator's contents are carried by the region's invariant, and
  the output block is written only at the odd points. Stated at a parameter `V`, the buffers' contents when the region is
  entered, and at any instance of the float operations.
-/
import proofs.«105469_j42520176230457_2_alg».proof.Proof.Gen.Kernel.Launch
import proofs.«105469_j42520176230457_2_alg».proof.Proof.Gen.Kernel.Skeleton
import proofs.«105469_j42520176230457_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, decided over the grid -/

/-- "This is the first half of the contracted axis": the accumulator is cleared. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- "This is the last half": the output block is stored. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At the even points nothing is stored into the output block and it is not written back. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
/-- At the odd points it is stored. -/
theorem liveAt2_4_B : ∀ t : Fin cfg2.N, ¬cond2_0 (grid2.coords t) → cond2_1 (grid2.coords t) → cfg2.idle 4 (grid2.coords t) = false := by decide +kernel

/-! ## The buffers the body works on -/

abbrev VO2_4 : View sig .tc .vmem S1024x1024 .f32 := (Memref.whole cc2_stg4_0 : Memref sig .tc .vmem S1024x1024 .f32).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S1024x1024 .f32 := Memref.whole cc2_scratch0
abbrev VS2_0 : View sig .tc .vmem S1024x1024 .f32 := scM2_0.view

/-- The scoped buffers of the other two pallas_calls, each whole at some contents: they ride through this region. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Twelve conjuncts and a thirteenth, regrouped: the first twelve together, then the last. -/
theorem sep13_regroup (A1 A2 A3 A4 A5 A6 A7 A8 A9 A10 A11 A12 S : sProp 𝕄) :
    (iprop(A1 ∗ A2 ∗ A3 ∗ A4 ∗ A5 ∗ A6 ∗ A7 ∗ A8 ∗ A9 ∗ A10 ∗ A11 ∗ A12 ∗ S) : sProp 𝕄) = iprop((A1 ∗ A2 ∗ A3 ∗ A4 ∗ A5 ∗ A6 ∗ A7 ∗ A8 ∗ A9 ∗ A10 ∗ A11 ∗ A12) ∗ S) := by
  have h1 : (iprop(A1 ∗ A2 ∗ A3 ∗ A4 ∗ A5 ∗ A6 ∗ A7 ∗ A8 ∗ A9 ∗ A10 ∗ A11 ∗ A12 ∗ S) : sProp 𝕄) ⊢ iprop((A1 ∗ A2 ∗ A3 ∗ A4 ∗ A5 ∗ A6 ∗ A7 ∗ A8 ∗ A9 ∗ A10 ∗ A11 ∗ A12) ∗ S) := by
    iintro ⟨R1, R2, R3, R4, R5, R6, R7, R8, R9, R10, R11, R12, HS⟩
    isplitr [HS]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      iexact R12
    · iexact HS
  have h2 : (iprop((A1 ∗ A2 ∗ A3 ∗ A4 ∗ A5 ∗ A6 ∗ A7 ∗ A8 ∗ A9 ∗ A10 ∗ A11 ∗ A12) ∗ S) : sProp 𝕄) ⊢ iprop(A1 ∗ A2 ∗ A3 ∗ A4 ∗ A5 ∗ A6 ∗ A7 ∗ A8 ∗ A9 ∗ A10 ∗ A11 ∗ A12 ∗ S) := by
    iintro ⟨⟨R1, R2, R3, R4, R5, R6, R7, R8, R9, R10, R11, R12⟩, HS⟩
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact HS
  exact BI.Entails.antisymm h1 h2

/-- The scoped buffers no window of this region stages are those and the accumulator. -/
theorem scopedRest2_split (c : Dev nD) :
    (Pipeline.scopedRest (Ix := Unit) (Name := ℕ) (U := UR sig nD τ) (Lvl := ℕ) (Val := Elt F) spec2 c : sProp 𝕄)
      = iprop(others c ∗ (∃ d, owns (c : Thread nD τ) scM2_0 fullShare d)) := by
  rw [scopedRest2_eq]; unfold others; simp only [scM2_0, owns_whole]
  exact sep13_regroup _ _ _ _ _ _ _ _ _ _ _ _ _

/-- The class's invariant with the accumulator named: what the region is entered with. -/
theorem PhiA2_eq (c : Dev nD) :
    (Pipeline.ΦA spec2 c : sProp 𝕄)
      = iprop(iprop(others c ∗ (∃ d, owns (c : Thread nD τ) scM2_0 fullShare d)) ∗ (∃ r, prngReg c r)) := by
  unfold Pipeline.ΦA; rw [scopedRest2_split]

/-! ## The body's run, case by case: the pieces each buffer ends with are found by the run itself -/

set_option maxHeartbeats 2000000 in
/-- FIRST HALF (the accumulator is cleared, then the half's product added; the output block untouched): on whole
    staging buffers, the inputs' at their contents, the output's at contents handed back untouched and the accumulator
    at anything, the body runs to the continuation with the accumulator's pieces written. -/
noncomputable def kernelRun2_A (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x2048 .bf16) (x1 : Vec F S1024x2048 .bf16) (x2 : Vec F S1024x1 .f32) (x3 : Vec F S1x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__quant_matmul_kernel i arg3 harg3 arg4 harg4 arg5 harg5 arg6 harg6 arg7 harg7 arg8 harg8) K } := by
  refine ⟨[], ?_, fun xi4 E K => ?run⟩
  case run =>
    simp only [cc2__quant_matmul_kernel_eq_skeleton]; unfold cc2__quant_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 2000000 in
/-- SECOND HALF (the half's product added to what the first half left, `xs0`; the rescaled accumulator stored into the
    output block): the output's buffer at anything, the accumulator at `xs0`; both end with their pieces written. -/
noncomputable def kernelRun2_B (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S1024x2048 .bf16) (x2 : Vec F S1024x1 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__quant_matmul_kernel i arg3 harg3 arg4 harg4 arg5 harg5 arg6 harg6 arg7 harg7 arg8 harg8) K } := by
  refine ⟨?_, ?_, fun E K => ?run⟩
  case run =>
    simp only [cc2__quant_matmul_kernel_eq_skeleton]; unfold cc2__quant_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.MatmulRegionBits.lean ====
/-
  The matrix-product region, continued: what the accumulator and the output block hold after each grid point (by
  recursion on the point: an odd point adds to what the even point before it left), the region's invariant carrying the
  accumulator from point to point, the proof data and the body obligation.
-/
import proofs.«105469_j42520176230457_2_alg».proof.Proof.MatmulRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first half stores nothing into the output block: a placeholder nothing consults. -/
def out2_A_4 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 : Vec F S1024x2048 .bf16) (x1 : Vec F S1024x2048 .bf16) (x2 : Vec F S1024x1 .f32) (x3 : Vec F S1x1024 .f32) : Vec F S1024x1024 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)

/-- Its stores into the accumulator cover it. -/
theorem scover2_A_0 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 : Vec F S1024x2048 .bf16) (x1 : Vec F S1024x2048 .bf16) (x2 : Vec F S1024x1 .f32) (x3 : Vec F S1x1024 .f32) (y : S1024x1024.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1024x1024.size (by sl_kernel_rfl) y

/-- What the first half leaves in the accumulator. -/
def sout2_A_0 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 : Vec F S1024x2048 .bf16) (x1 : Vec F S1024x2048 .bf16) (x2 : Vec F S1024x1 .f32) (x3 : Vec F S1x1024 .f32) : Vec F S1024x1024 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

/-- The second half's store covers the output block, -/
theorem cover2_B_4 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) (y : S1024x1024.Idx) :
    ∃ pc ∈ (kernelRun2_B c i arg3 harg3 arg4 harg4 arg5 harg5 arg6 harg6 arg7 harg7 arg8 harg8 hc0 hc1 x0 x1 x2 x3 xs0).1, y ∈ pc.1.set :=
  View.cover_of_tiledL (kernelRun2_B c i arg3 harg3 arg4 harg4 arg5 harg5 arg6 harg6 arg7 harg7 arg8 harg8 hc0 hc1 x0 x1 x2 x3 xs0).1 S1024x1024.size (by sl_kernel_rfl) y

/-- and this is what it leaves there. -/
def out2_B_4 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) : Vec F S1024x1024 .f32 :=
  VO2_4.read (Elt F) (VO2_4.writes (Elt F) VO2_4.junk (kernelRun2_B c i arg3 harg3 arg4 harg4 arg5 harg5 arg6 harg6 arg7 harg7 arg8 harg8 hc0 hc1 x0 x1 x2 x3 xs0).1)

/-- Its store into the accumulator covers it, -/
theorem scover2_B_0 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) (y : S1024x1024.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S1024x1024.size (by sl_kernel_rfl) y

/-- and this is what it leaves there. -/
def sout2_B_0 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

/-! ## What the output block's buffer and the accumulator hold after each point -/

/-- After position `n` (a pair: the output block's buffer, the accumulator): an even position is a first half, run on
    the point's blocks; an odd one a second half, run on the point's blocks and the accumulator the position before
    left. -/
def outsAt2 (c : Dev nD) : (n : ℕ) → n < cfg2.N → Vec F S1024x1024 .f32 × Vec F S1024x1024 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 2 = 0 then
      if h1 : (n + 1) % 2 = 1 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 2 = 1 then
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        False.elim (by omega)

/-- At an even point: the first half's contents. -/
theorem outsAt2_A (c : Dev nD) (t : Fin cfg2.N) (h0 : t.val % 2 = 0) (h1 : ¬t.val % 2 = 1) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t),
      sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- At an odd point: the second half's contents, over the accumulator the point before left. -/
theorem outsAt2_B (c : Dev nD) (t : Fin cfg2.N) (h0 : ¬t.val % 2 = 0) (h1 : t.val % 2 = 1) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the region's entry the class's invariant (the accumulator at anything); afterwards the
    other pallas_calls' scoped buffers, the accumulator at what the position before left in it, and the generator
    register at some state. -/
def PhiS (c : Dev nD) : (n : ℕ) → n ≤ cfg2.N → sProp 𝕄
  | 0, _ => Pipeline.ΦA spec2 c
  | n + 1, hn => iprop(iprop(others c ∗ owns (c : Thread nD τ) scM2_0 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(others c ∗ owns (c : Thread nD τ) scM2_0 fullShare ((outsAt2 V c n hn).2)) ∗ (∃ r, prngReg c r)) := rfl
theorem PhiS_pos (c : Dev nD) (n : ℕ) (h : n ≤ cfg2.N) (hz : n ≠ 0) :
    PhiS V c n h = iprop(iprop(others c ∗ owns (c : Thread nD τ) scM2_0 fullShare ((outsAt2 V c (n - 1) (by omega)).2)) ∗ (∃ r, prngReg c r)) := by
  cases n with
  | zero => exact absurd rfl hz
  | succ n => rfl

/-! ## The proof data -/

/-- The arrays as the region finds them; after the body each input's buffer at its block and the output's at `outsAt2`;
    the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the parity of the point says which half it is. At a
    first half the accumulator is taken at anything (from the entry invariant at the first point, from what the
    point before left otherwise) and the output's buffer handed back untouched; at a second half the accumulator is
    taken at what the first half left and the output block is stored. Either way the accumulator goes back into the
    invariant at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 2 = 0
  · have h1 : ¬t.val % 2 = 1 := by omega
    rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
    rw [outsAt2_A V c t h0 h1]
    unfold sout2_A_0; (try dsimp only)
    by_cases hz : t.val = 0
    · rw [PhiS_castSucc V c t, PhiS_zero V c _ _ hz, PhiA2_eq]
      iintro ⟨⟨⟨Hoth, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover2_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover2_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat2 V c).leavesExact 4 t = owns (c : Thread nD τ) (ms2_4 t) fullShare ((dat2 V c).after 4 t) from by
      unfold Dat.leavesExact; rw [liveAt2_4_B t (fun h => h0 ((hcond2_0 t).mp h)) ((hcond2_1 t).mpr h1)], after2_4]
    rw [outsAt2_B V c t h0 h1]
    unfold out2_B_4 sout2_B_0; (try dsimp only)
    rw [PhiS_castSucc V c t, PhiS_pos V c _ _ hz]
    iintro ⟨⟨⟨Hoth, HS0⟩, Hg⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [Hoth HS0 Hg]
    · isplitl [Hoth HS0]
      · isplitl [Hoth]; · iexact Hoth
        unfold owns; iexists _; isplitr
        swap; · iexact HS0
        ipureintro; exact View.read_writes_of_cover _ _ _ _ _ (scover2_B_0 c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- The invariant before the first point is the class's; -/
theorem Phi2_zero (c : Dev nD) : (dat2 V c).Φ 0 = Pipeline.ΦA spec2 c := rfl

/-- after the last point it gives the class's back, the accumulator's contents forgotten. -/
theorem Phi2_last (c : Dev nD) : (dat2 V c).Φ (Fin.last cfg2.N) ⊢ Pipeline.ΦA spec2 c := by
  have hN : cfg2.N = 64 := N_2
  rw [show (dat2 V c).Φ (Fin.last cfg2.N) = PhiS V c (Fin.last cfg2.N).val (Nat.le_of_lt_succ (Fin.last cfg2.N).isLt) from rfl,
    PhiS_pos V c _ _ (by rw [Fin.val_last]; omega), PhiA2_eq]
  iintro ⟨⟨Hoth, HS0⟩, Hg⟩
  isplitl [Hoth HS0]
  · isplitl [Hoth]; · iexact Hoth
    iexists _; iexact HS0
  iexact Hg

end Cert.Kernel.Hand

end
-- ==== Proof.RunBits.lean ====
/-
  The whole program's run: two quantization regions, the host's transpose of the second scale column, and the
  matrix-product region, composed by the several-regions launch theorem. The buffers' contents at each boundary are a
  fold from the launch memory: a region leaves its arrays at what its write-backs make of them and every other buffer
  as it was; the host operation writes its own result. The run's post names every unscoped buffer's final contents,
  from which both the frame (the two arguments end as launched) and the result's value are read.
-/
import proofs.«105469_j42520176230457_2_alg».proof.Proof.QuantRegionsBits
import proofs.«105469_j42520176230457_2_alg».proof.Proof.MatmulRegionBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- What pallas_call 0 is entered with. -/
abbrev Va : (c : Dev nD) → (b : Ref sig .tc) → Buf (Elt F) ((c : Thread nD τ).loc b) := fun c b => W0 m ρ c b

/-- After pallas_call 0: its arrays at what the pipeline's write-backs leave, every other buffer as it was. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem hF0 (c : Dev nD) (w : Fin cfg0.W) : (dat0 (Va m ρ) c).arrAt w cfg0.N = W1 m ρ c (Proc.devRef .tc (Pipeline.arrRef spec0 w)) :=
  (W1_arr m ρ c w).symm
theorem hrest0 (c : Dev nD) : ∀ b, b ∉ Finset.univ.image (Pipeline.arrRef spec0) → W1 m ρ c (Proc.devRef .tc b) = Va m ρ c b :=
  fun b hb => W1_of_ne m ρ c b fun w e => hb (Finset.mem_image.mpr ⟨w, Finset.mem_univ _, e⟩)

/-- What pallas_call 1 is entered with. -/
abbrev Vb : (c : Dev nD) → (b : Ref sig .tc) → Buf (Elt F) ((c : Thread nD τ).loc b) := fun c b => W1 m ρ c b

/-- After pallas_call 1: its arrays at what the pipeline's write-backs leave, every other buffer as it was. -/
def W2 (c : Dev nD) : Valuation τ sig (Elt F) :=
  Pipeline.withArrays spec1 c (W1 m ρ c) fun w => (dat1 (Vb m ρ) c).arrAt w cfg1.N
theorem W2_arr (c : Dev nD) (w : Fin cfg1.W) :
    W2 m ρ c (Proc.devRef .tc (Pipeline.arrRef spec1 w)) = (dat1 (Vb m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem hF1 (c : Dev nD) (w : Fin cfg1.W) : (dat1 (Vb m ρ) c).arrAt w cfg1.N = W2 m ρ c (Proc.devRef .tc (Pipeline.arrRef spec1 w)) :=
  (W2_arr m ρ c w).symm
theorem hrest1 (c : Dev nD) : ∀ b, b ∉ Finset.univ.image (Pipeline.arrRef spec1) → W2 m ρ c (Proc.devRef .tc b) = Vb m ρ c b :=
  fun b hb => W2_of_ne m ρ c b fun w e => hb (Finset.mem_image.mpr ⟨w, Finset.mem_univ _, e⟩)

/-- After the host's transpose. -/
abbrev W3 : Dev nD → Valuation τ sig (Elt F) := fun c => StableHlo.after hostOps2 (W2 m ρ c)
/-- What pallas_call 2 is entered with. -/
abbrev Vd : (c : Dev nD) → (b : Ref sig .tc) → Buf (Elt F) ((c : Thread nD τ).loc b) := fun c b => W3 m ρ c b

/-- After pallas_call 2: its arrays at what the pipeline's write-backs leave, every other buffer as it was. -/
def W4 (c : Dev nD) : Valuation τ sig (Elt F) :=
  Pipeline.withArrays spec2 c (W3 m ρ c) fun w => (dat2 (Vd m ρ) c).arrAt w cfg2.N
theorem W4_arr (c : Dev nD) (w : Fin cfg2.W) :
    W4 m ρ c (Proc.devRef .tc (Pipeline.arrRef spec2 w)) = (dat2 (Vd m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem hF2 (c : Dev nD) (w : Fin cfg2.W) : (dat2 (Vd m ρ) c).arrAt w cfg2.N = W4 m ρ c (Proc.devRef .tc (Pipeline.arrRef spec2 w)) :=
  (W4_arr m ρ c w).symm
theorem hrest2 (c : Dev nD) : ∀ b, b ∉ Finset.univ.image (Pipeline.arrRef spec2) → W4 m ρ c (Proc.devRef .tc b) = Vd m ρ c b :=
  fun b hb => W4_of_ne m ρ c b fun w e => hb (Finset.mem_image.mpr ⟨w, Finset.mem_univ _, e⟩)

/-! ## The proof data family and the thread state -/

abbrev adm3 : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm3 p) c
  | ⟨0, _⟩ => fun c => dat0 (Va m ρ) c
  | ⟨1, _⟩ => fun c => dat1 (Vb m ρ) c
  | ⟨2, _⟩ => fun c => dat2 (Vd m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostTail_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Pallas_call 0 as a segment: entered with every unscoped buffer at `W0`, left with them at `W1`. Its arrays are
    split out of the unscoped buffers at entry and put back at what the write-backs leave at exit; the generator
    register goes into the region's invariant and comes back; nothing is owed; the kernel has no semaphore of its own. -/
def reg0 : Pipeline.RegionSeg (pcfgs (F := F)) adm3 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm3 (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats m ρ) ((pdats m ρ 0 c).share_full fun _ => rfl)
      (Va m ρ c) (fun b => W1 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `W1`, left with them at `W2`. Its arrays are
    split out of the unscoped buffers at entry and put back at what the write-backs leave at exit; the generator
    register goes into the region's invariant and comes back; nothing is owed; the kernel has no semaphore of its own. -/
def reg1 : Pipeline.RegionSeg (pcfgs (F := F)) adm3 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm3 (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats m ρ) ((pdats m ρ 1 c).share_full fun _ => rfl)
      (Vb m ρ c) (fun b => W2 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at `W3`, left with them at `W4`. Its arrays are
    split out of the unscoped buffers at entry and put back at what the write-backs leave at exit; the generator
    register goes into the region's invariant and comes back; nothing is owed; the kernel has no semaphore of its own. -/
def reg2 : Pipeline.RegionSeg (pcfgs (F := F)) adm3 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vd m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vd m ρ c)
  hentry c := by
    rw [Pipeline.ownSems0_none]
    have hsplit := Pipeline.arrays_of_unscopedBufs (p := 2) (pcfgs (F := F)) adm3 (pdats m ρ) launch2.win launch2.arr_whole c
      ((pdats m ρ 2 c).share_full fun _ => rfl) (Vd m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi2_last (Vd m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats m ρ) ((pdats m ρ 2 c).share_full fun _ => rfl)
      (Vd m ρ c) (fun b => W4 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm3 (pdats m ρ) () defs₀ 𝒱₀ L lv) :=
  [ .region (reg0 m ρ),
    .region (reg1 m ρ),
    .host (hseg hostOps2 hostOps2_sub hostTail_fresh (W2 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm3 (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl

theorem W1_main_arg1 (c : Dev nD) : W1 m ρ c (Proc.devRef .tc main_arg1) = m ((c : Thread nD τ).loc main_arg1) :=
  (W1_of_ne m ρ c main_arg1 (by decide)).trans rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, Finset.mem_singleton]
          exact StableHlo.devRef_ne_of_ne (by decide)))
    _ = W1 m ρ c (Proc.devRef .tc main_arg1) := (W2_arr m ρ c 0).trans (((dat1 (Vb m ρ) c).arrAt_in 0 rfl _).trans (A_eq1 (Vb m ρ) c 0))
    _ = m ((c : Thread nD τ).loc main_arg1) := W1_main_arg1 m ρ c

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_main m ρ)

end Cert.Kernel.Hand

end
-- ==== Proof.QuantRegionsIdeal.lean ====
/-
  The two quantization regions of the program, as the pipeline library asks for them: per region, what one grid
  point's body leaves in its output buffers as a function of the rows it read, the body's run, and the proof data.
  Everything is stated at a parameter `V`, the buffers' contents when the region is entered, and at any instance of
  the float operations.
-/
import proofs.«105469_j42520176230457_2_alg».proof.Proof.Gen.KernelIdeal.Launch
import proofs.«105469_j42520176230457_2_alg».proof.Proof.Gen.KernelIdeal.Skeleton
import proofs.«105469_j42520176230457_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The quantization kernel of pallas_call 0, at the contents `V` its region is entered with

One grid point handles 256 whole rows: it reads the rows' block, and writes the block of quantized entries and the
column of the rows' scales. Nothing is kept between points. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the rows' block at every point, for any proof data over `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body's two rectangles: the whole [256, 4096] block and the whole [256, 1] column. -/
abbrev rq0 : Rect S256x4096 := Rect.unit (s := S256x4096) ![0, 0] S256x4096.size inb_S256x4096_S256x4096_0_0
abbrev rs0 : Rect S256x1 := Rect.unit (s := S256x1) ![0, 0] S256x1.size inb_S256x1_S256x1_0_0

/-- What the body leaves in the quantized block's buffer and in the scales' buffer, from the rows' block. -/
def outq0 (x0 : Vec F S256x4096 .f32) : Vec F S256x4096 .bf16 :=
  View.canon [⟨rq0, k0_pay2 (View.ld x0 rq0)⟩]
def outs0 (x0 : Vec F S256x4096 .f32) : Vec F S256x1 .f32 :=
  View.canon [⟨rs0, k0_pay1 (View.ld x0 rq0)⟩]

/-- Each store covers its whole buffer. -/
theorem coverq0 (p0 : Vec F S256x4096 .bf16) (y : S256x4096.Idx) :
    ∃ pc ∈ ([⟨rq0, p0⟩] : List (View.Piece (Elt F) S256x4096 .bf16)), y ∈ pc.1.set :=
  View.cover_of_tiled [⟨rq0, p0⟩] S256x4096.size (by rfl) y
theorem covers0 (p0 : Vec F S256x1 .f32) (y : S256x1.Idx) :
    ∃ pc ∈ ([⟨rs0, p0⟩] : List (View.Piece (Elt F) S256x1 .f32)), y ∈ pc.1.set :=
  View.cover_of_tiled [⟨rs0, p0⟩] S256x1.size (by rfl) y

set_option maxHeartbeats 1000000 in
/-- The body on whole staging buffers, the input's at the rows `x0` and the two outputs' at anything, runs to the
    continuation with the input's as it was and the outputs' at `outq0 x0` and `outs0 x0`. -/
theorem sound_kernel0 (c : Dev nD) (E : Set ℕ) (i : grid0.Coords) (arg1 : Memref sig .tc .vmem S256x4096 .f32) (harg1 : arg1.IsWhole)
    (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outq0 x0) ∗ owns (c : Thread nD τ) arg3 fullShare (outs0 x0)) -∗ K ⟨⟩))
      ⊢ wp frame (wpE (defs₀ (F := F)) Variants.none c none) E (cc0__quant_kernel i arg1 harg1 arg2 harg2 arg3 harg3) K := by
  simp only [cc0__quant_kernel_eq_skeleton]; unfold cc0__quant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverq0 _)
  iexists _; isplitr
  swap; · iexact H2
  ipureintro
  exact View.read_writes_eq_canon _ _ _ (covers0 _)

/-- The proof data of pipeline 0: the arrays as the region finds them; after the body the input's buffer at the rows'
    block, the outputs' at the quantized block and the scales of that block; the scoped rest and the generator
    register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outq0 (iblk0 V c 0 t)
    | ⟨2, _⟩ => outs0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = outq0 (iblk0 V c 0 t) := by dsimp only [dat0]
theorem after0_2 (c : Dev nD) (t : Fin cfg0.N) : (dat0 V c).after 2 t = outs0 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's buffer holds the rows' block, so the kernel's run applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # The quantization kernel of pallas_call 1, at the contents `V` its region is entered with

One grid point handles 256 whole rows: it reads the rows' block, and writes the block of quantized entries and the
column of the rows' scales. Nothing is kept between points. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the rows' block at every point, for any proof data over `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's two rectangles: the whole [256, 4096] block and the whole [256, 1] column. -/
abbrev rq1 : Rect S256x4096 := Rect.unit (s := S256x4096) ![0, 0] S256x4096.size inb_S256x4096_S256x4096_0_0
abbrev rs1 : Rect S256x1 := Rect.unit (s := S256x1) ![0, 0] S256x1.size inb_S256x1_S256x1_0_0

/-- What the body leaves in the quantized block's buffer and in the scales' buffer, from the rows' block. -/
def outq1 (x0 : Vec F S256x4096 .f32) : Vec F S256x4096 .bf16 :=
  View.canon [⟨rq1, k1_pay2 (View.ld x0 rq1)⟩]
def outs1 (x0 : Vec F S256x4096 .f32) : Vec F S256x1 .f32 :=
  View.canon [⟨rs1, k1_pay1 (View.ld x0 rq1)⟩]

/-- Each store covers its whole buffer. -/
theorem coverq1 (p0 : Vec F S256x4096 .bf16) (y : S256x4096.Idx) :
    ∃ pc ∈ ([⟨rq1, p0⟩] : List (View.Piece (Elt F) S256x4096 .bf16)), y ∈ pc.1.set :=
  View.cover_of_tiled [⟨rq1, p0⟩] S256x4096.size (by rfl) y
theorem covers1 (p0 : Vec F S256x1 .f32) (y : S256x1.Idx) :
    ∃ pc ∈ ([⟨rs1, p0⟩] : List (View.Piece (Elt F) S256x1 .f32)), y ∈ pc.1.set :=
  View.cover_of_tiled [⟨rs1, p0⟩] S256x1.size (by rfl) y

set_option maxHeartbeats 1000000 in
/-- The body on whole staging buffers, the input's at the rows `x0` and the two outputs' at anything, runs to the
    continuation with the input's as it was and the outputs' at `outq1 x0` and `outs1 x0`. -/
theorem sound_kernel1 (c : Dev nD) (E : Set ℕ) (i : grid1.Coords) (arg1 : Memref sig .tc .vmem S256x4096 .f32) (harg1 : arg1.IsWhole)
    (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outq1 x0) ∗ owns (c : Thread nD τ) arg3 fullShare (outs1 x0)) -∗ K ⟨⟩))
      ⊢ wp frame (wpE (defs₀ (F := F)) Variants.none c none) E (cc1__quant_kernel i arg1 harg1 arg2 harg2 arg3 harg3) K := by
  simp only [cc1__quant_kernel_eq_skeleton]; unfold cc1__quant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverq1 _)
  iexists _; isplitr
  swap; · iexact H2
  ipureintro
  exact View.read_writes_eq_canon _ _ _ (covers1 _)

/-- The proof data of pipeline 1: the arrays as the region finds them; after the body the input's buffer at the rows'
    block, the outputs' at the quantized block and the scales of that block; the scoped rest and the generator
    register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => outq1 (iblk1 V c 0 t)
    | ⟨2, _⟩ => outs1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = outq1 (iblk1 V c 0 t) := by dsimp only [dat1]
theorem after1_2 (c : Dev nD) (t : Fin cfg1.N) : (dat1 V c).after 2 t = outs1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's buffer holds the rows' block, so the kernel's run applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.MatmulRunsIdeal.lean ====
/-
  The matrix-product region of the program, as the pipeline library asks for it. Its grid is 8 x 4 x 2: the last
  coordinate walks the two halves of the contracted axis. At the first half the body clears its accumulator (a
  scratch buffer of its own, kept from one grid point to the next) and adds the half's product into it; at the second
  half it adds that half's product and stores the accumulator, rescaled by the rows' and the columns' scales, into the
  output block. So there are two control cases, the accumulator's contents are carried by the region's invariant, and
  the output block is written only at the odd points. Stated at a parameter `V`, the buffers' contents when the region is
  entered, and at any instance of the float operations.
-/
import proofs.«105469_j42520176230457_2_alg».proof.Proof.Gen.KernelIdeal.Launch
import proofs.«105469_j42520176230457_2_alg».proof.Proof.Gen.KernelIdeal.Skeleton
import proofs.«105469_j42520176230457_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, decided over the grid -/

/-- "This is the first half of the contracted axis": the accumulator is cleared. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- "This is the last half": the output block is stored. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At the even points nothing is stored into the output block and it is not written back. -/
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
/-- At the odd points it is stored. -/
theorem liveAt2_4_B : ∀ t : Fin cfg2.N, ¬cond2_0 (grid2.coords t) → cond2_1 (grid2.coords t) → cfg2.idle 4 (grid2.coords t) = false := by decide +kernel

/-! ## The buffers the body works on -/

abbrev VO2_4 : View sig .tc .vmem S1024x1024 .f32 := (Memref.whole cc2_stg4_0 : Memref sig .tc .vmem S1024x1024 .f32).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S1024x1024 .f32 := Memref.whole cc2_scratch0
abbrev VS2_0 : View sig .tc .vmem S1024x1024 .f32 := scM2_0.view

/-- The scoped buffers of the other two pallas_calls, each whole at some contents: they ride through this region. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Twelve conjuncts and a thirteenth, regrouped: the first twelve together, then the last. -/
theorem sep13_regroup (A1 A2 A3 A4 A5 A6 A7 A8 A9 A10 A11 A12 S : sProp 𝕄) :
    (iprop(A1 ∗ A2 ∗ A3 ∗ A4 ∗ A5 ∗ A6 ∗ A7 ∗ A8 ∗ A9 ∗ A10 ∗ A11 ∗ A12 ∗ S) : sProp 𝕄) = iprop((A1 ∗ A2 ∗ A3 ∗ A4 ∗ A5 ∗ A6 ∗ A7 ∗ A8 ∗ A9 ∗ A10 ∗ A11 ∗ A12) ∗ S) := by
  have h1 : (iprop(A1 ∗ A2 ∗ A3 ∗ A4 ∗ A5 ∗ A6 ∗ A7 ∗ A8 ∗ A9 ∗ A10 ∗ A11 ∗ A12 ∗ S) : sProp 𝕄) ⊢ iprop((A1 ∗ A2 ∗ A3 ∗ A4 ∗ A5 ∗ A6 ∗ A7 ∗ A8 ∗ A9 ∗ A10 ∗ A11 ∗ A12) ∗ S) := by
    iintro ⟨R1, R2, R3, R4, R5, R6, R7, R8, R9, R10, R11, R12, HS⟩
    isplitr [HS]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      iexact R12
    · iexact HS
  have h2 : (iprop((A1 ∗ A2 ∗ A3 ∗ A4 ∗ A5 ∗ A6 ∗ A7 ∗ A8 ∗ A9 ∗ A10 ∗ A11 ∗ A12) ∗ S) : sProp 𝕄) ⊢ iprop(A1 ∗ A2 ∗ A3 ∗ A4 ∗ A5 ∗ A6 ∗ A7 ∗ A8 ∗ A9 ∗ A10 ∗ A11 ∗ A12 ∗ S) := by
    iintro ⟨⟨R1, R2, R3, R4, R5, R6, R7, R8, R9, R10, R11, R12⟩, HS⟩
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact HS
  exact BI.Entails.antisymm h1 h2

/-- The scoped buffers no window of this region stages are those and the accumulator. -/
theorem scopedRest2_split (c : Dev nD) :
    (Pipeline.scopedRest (Ix := Unit) (Name := ℕ) (U := UR sig nD τ) (Lvl := ℕ) (Val := Elt F) spec2 c : sProp 𝕄)
      = iprop(others c ∗ (∃ d, owns (c : Thread nD τ) scM2_0 fullShare d)) := by
  rw [scopedRest2_eq]; unfold others; simp only [scM2_0, owns_whole]
  exact sep13_regroup _ _ _ _ _ _ _ _ _ _ _ _ _

/-- The class's invariant with the accumulator named: what the region is entered with. -/
theorem PhiA2_eq (c : Dev nD) :
    (Pipeline.ΦA spec2 c : sProp 𝕄)
      = iprop(iprop(others c ∗ (∃ d, owns (c : Thread nD τ) scM2_0 fullShare d)) ∗ (∃ r, prngReg c r)) := by
  unfold Pipeline.ΦA; rw [scopedRest2_split]

/-! ## The body's run, case by case: the pieces each buffer ends with are found by the run itself -/

set_option maxHeartbeats 2000000 in
/-- FIRST HALF (the accumulator is cleared, then the half's product added; the output block untouched): on whole
    staging buffers, the inputs' at their contents, the output's at contents handed back untouched and the accumulator
    at anything, the body runs to the continuation with the accumulator's pieces written. -/
noncomputable def kernelRun2_A (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i)
    (x0 : Vec F S1024x2048 .bf16) (x1 : Vec F S1024x2048 .bf16) (x2 : Vec F S1024x1 .f32) (x3 : Vec F S1x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__quant_matmul_kernel i arg3 harg3 arg4 harg4 arg5 harg5 arg6 harg6 arg7 harg7 arg8 harg8) K } := by
  refine ⟨[], ?_, fun xi4 E K => ?run⟩
  case run =>
    simp only [cc2__quant_matmul_kernel_eq_skeleton]; unfold cc2__quant_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 2000000 in
/-- SECOND HALF (the half's product added to what the first half left, `xs0`; the rescaled accumulator stored into the
    output block): the output's buffer at anything, the accumulator at `xs0`; both end with their pieces written. -/
noncomputable def kernelRun2_B (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S1024x2048 .bf16) (x2 : Vec F S1024x1 .f32) (x3 : Vec F S1x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__quant_matmul_kernel i arg3 harg3 arg4 harg4 arg5 harg5 arg6 harg6 arg7 harg7 arg8 harg8) K } := by
  refine ⟨?_, ?_, fun E K => ?run⟩
  case run =>
    simp only [cc2__quant_matmul_kernel_eq_skeleton]; unfold cc2__quant_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.MatmulRegionIdeal.lean ====
/-
  The matrix-product region, continued: what the accumulator and the output block hold after each grid point (by
  recursion on the point: an odd point adds to what the even point before it left), the region's invariant carrying the
  accumulator from point to point, the proof data and the body obligation.
-/
import proofs.«105469_j42520176230457_2_alg».proof.Proof.MatmulRunsIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first half stores nothing into the output block: a placeholder nothing consults. -/
def out2_A_4 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 : Vec F S1024x2048 .bf16) (x1 : Vec F S1024x2048 .bf16) (x2 : Vec F S1024x1 .f32) (x3 : Vec F S1x1024 .f32) : Vec F S1024x1024 .f32 :=
  VO2_4.read (Elt F) (VO2_4.writes (Elt F) VO2_4.junk (kernelRun2_A c i arg3 harg3 arg4 harg4 arg5 harg5 arg6 harg6 arg7 harg7 arg8 harg8 hc0 hc1 x0 x1 x2 x3).1)

/-- Its stores into the accumulator cover it. -/
theorem scover2_A_0 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 : Vec F S1024x2048 .bf16) (x1 : Vec F S1024x2048 .bf16) (x2 : Vec F S1024x1 .f32) (x3 : Vec F S1x1024 .f32) (y : S1024x1024.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1024x1024.size (by sl_kernel_rfl) y

/-- What the first half leaves in the accumulator. -/
def sout2_A_0 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 : Vec F S1024x2048 .bf16) (x1 : Vec F S1024x2048 .bf16) (x2 : Vec F S1024x1 .f32) (x3 : Vec F S1x1024 .f32) : Vec F S1024x1024 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

/-- The second half's store covers the output block, -/
theorem cover2_B_4 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) (y : S1024x1024.Idx) :
    ∃ pc ∈ (kernelRun2_B c i arg3 harg3 arg4 harg4 arg5 harg5 arg6 harg6 arg7 harg7 arg8 harg8 hc0 hc1 x0 x1 x2 x3 xs0).1, y ∈ pc.1.set :=
  View.cover_of_tiledL (kernelRun2_B c i arg3 harg3 arg4 harg4 arg5 harg5 arg6 harg6 arg7 harg7 arg8 harg8 hc0 hc1 x0 x1 x2 x3 xs0).1 S1024x1024.size (by sl_kernel_rfl) y

/-- and this is what it leaves there. -/
def out2_B_4 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) : Vec F S1024x1024 .f32 :=
  VO2_4.read (Elt F) (VO2_4.writes (Elt F) VO2_4.junk (kernelRun2_B c i arg3 harg3 arg4 harg4 arg5 harg5 arg6 harg6 arg7 harg7 arg8 harg8 hc0 hc1 x0 x1 x2 x3 xs0).1)

/-- Its store into the accumulator covers it, -/
theorem scover2_B_0 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) (y : S1024x1024.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S1024x1024.size (by sl_kernel_rfl) y

/-- and this is what it leaves there. -/
def sout2_B_0 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

/-! ## What the output block's buffer and the accumulator hold after each point -/

/-- After position `n` (a pair: the output block's buffer, the accumulator): an even position is a first half, run on
    the point's blocks; an odd one a second half, run on the point's blocks and the accumulator the position before
    left. -/
def outsAt2 (c : Dev nD) : (n : ℕ) → n < cfg2.N → Vec F S1024x1024 .f32 × Vec F S1024x1024 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 2 = 0 then
      if h1 : (n + 1) % 2 = 1 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 2 = 1 then
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        False.elim (by omega)

/-- At an even point: the first half's contents. -/
theorem outsAt2_A (c : Dev nD) (t : Fin cfg2.N) (h0 : t.val % 2 = 0) (h1 : ¬t.val % 2 = 1) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t),
      sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- At an odd point: the second half's contents, over the accumulator the point before left. -/
theorem outsAt2_B (c : Dev nD) (t : Fin cfg2.N) (h0 : ¬t.val % 2 = 0) (h1 : t.val % 2 = 1) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the region's entry the class's invariant (the accumulator at anything); afterwards the
    other pallas_calls' scoped buffers, the accumulator at what the position before left in it, and the generator
    register at some state. -/
def PhiS (c : Dev nD) : (n : ℕ) → n ≤ cfg2.N → sProp 𝕄
  | 0, _ => Pipeline.ΦA spec2 c
  | n + 1, hn => iprop(iprop(others c ∗ owns (c : Thread nD τ) scM2_0 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(others c ∗ owns (c : Thread nD τ) scM2_0 fullShare ((outsAt2 V c n hn).2)) ∗ (∃ r, prngReg c r)) := rfl
theorem PhiS_pos (c : Dev nD) (n : ℕ) (h : n ≤ cfg2.N) (hz : n ≠ 0) :
    PhiS V c n h = iprop(iprop(others c ∗ owns (c : Thread nD τ) scM2_0 fullShare ((outsAt2 V c (n - 1) (by omega)).2)) ∗ (∃ r, prngReg c r)) := by
  cases n with
  | zero => exact absurd rfl hz
  | succ n => rfl

/-! ## The proof data -/

/-- The arrays as the region finds them; after the body each input's buffer at its block and the output's at `outsAt2`;
    the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the parity of the point says which half it is. At a
    first half the accumulator is taken at anything (from the entry invariant at the first point, from what the
    point before left otherwise) and the output's buffer handed back untouched; at a second half the accumulator is
    taken at what the first half left and the output block is stored. Either way the accumulator goes back into the
    invariant at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 2 = 0
  · have h1 : ¬t.val % 2 = 1 := by omega
    rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
    rw [outsAt2_A V c t h0 h1]
    unfold sout2_A_0; (try dsimp only)
    by_cases hz : t.val = 0
    · rw [PhiS_castSucc V c t, PhiS_zero V c _ _ hz, PhiA2_eq]
      iintro ⟨⟨⟨Hoth, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover2_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover2_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat2 V c).leavesExact 4 t = owns (c : Thread nD τ) (ms2_4 t) fullShare ((dat2 V c).after 4 t) from by
      unfold Dat.leavesExact; rw [liveAt2_4_B t (fun h => h0 ((hcond2_0 t).mp h)) ((hcond2_1 t).mpr h1)], after2_4]
    rw [outsAt2_B V c t h0 h1]
    unfold out2_B_4 sout2_B_0; (try dsimp only)
    rw [PhiS_castSucc V c t, PhiS_pos V c _ _ hz]
    iintro ⟨⟨⟨Hoth, HS0⟩, Hg⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [Hoth HS0 Hg]
    · isplitl [Hoth HS0]
      · isplitl [Hoth]; · iexact Hoth
        unfold owns; iexists _; isplitr
        swap; · iexact HS0
        ipureintro; exact View.read_writes_of_cover _ _ _ _ _ (scover2_B_0 c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- The invariant before the first point is the class's; -/
theorem Phi2_zero (c : Dev nD) : (dat2 V c).Φ 0 = Pipeline.ΦA spec2 c := rfl

/-- after the last point it gives the class's back, the accumulator's contents forgotten. -/
theorem Phi2_last (c : Dev nD) : (dat2 V c).Φ (Fin.last cfg2.N) ⊢ Pipeline.ΦA spec2 c := by
  have hN : cfg2.N = 64 := N_2
  rw [show (dat2 V c).Φ (Fin.last cfg2.N) = PhiS V c (Fin.last cfg2.N).val (Nat.le_of_lt_succ (Fin.last cfg2.N).isLt) from rfl,
    PhiS_pos V c _ _ (by rw [Fin.val_last]; omega), PhiA2_eq]
  iintro ⟨⟨Hoth, HS0⟩, Hg⟩
  isplitl [Hoth HS0]
  · isplitl [Hoth]; · iexact Hoth
    iexists _; iexact HS0
  iexact Hg

end Cert.KernelIdeal.Hand

end
-- ==== Proof.RunIdeal.lean ====
/-
  The whole program's run: two quantization regions, the host's transpose of the second scale column, and the
  matrix-product region, composed by the several-regions launch theorem. The buffers' contents at each boundary are a
  fold from the launch memory: a region leaves its arrays at what its write-backs make of them and every other buffer
  as it was; the host operation writes its own result. The run's post names every unscoped buffer's final contents,
  from which both the frame (the two arguments end as launched) and the result's value are read.
-/
import proofs.«105469_j42520176230457_2_alg».proof.Proof.QuantRegionsIdeal
import proofs.«105469_j42520176230457_2_alg».proof.Proof.MatmulRegionIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- What pallas_call 0 is entered with. -/
abbrev Va : (c : Dev nD) → (b : Ref sig .tc) → Buf (Elt F) ((c : Thread nD τ).loc b) := fun c b => W0 m ρ c b

/-- After pallas_call 0: its arrays at what the pipeline's write-backs leave, every other buffer as it was. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem hF0 (c : Dev nD) (w : Fin cfg0.W) : (dat0 (Va m ρ) c).arrAt w cfg0.N = W1 m ρ c (Proc.devRef .tc (Pipeline.arrRef spec0 w)) :=
  (W1_arr m ρ c w).symm
theorem hrest0 (c : Dev nD) : ∀ b, b ∉ Finset.univ.image (Pipeline.arrRef spec0) → W1 m ρ c (Proc.devRef .tc b) = Va m ρ c b :=
  fun b hb => W1_of_ne m ρ c b fun w e => hb (Finset.mem_image.mpr ⟨w, Finset.mem_univ _, e⟩)

/-- What pallas_call 1 is entered with. -/
abbrev Vb : (c : Dev nD) → (b : Ref sig .tc) → Buf (Elt F) ((c : Thread nD τ).loc b) := fun c b => W1 m ρ c b

/-- After pallas_call 1: its arrays at what the pipeline's write-backs leave, every other buffer as it was. -/
def W2 (c : Dev nD) : Valuation τ sig (Elt F) :=
  Pipeline.withArrays spec1 c (W1 m ρ c) fun w => (dat1 (Vb m ρ) c).arrAt w cfg1.N
theorem W2_arr (c : Dev nD) (w : Fin cfg1.W) :
    W2 m ρ c (Proc.devRef .tc (Pipeline.arrRef spec1 w)) = (dat1 (Vb m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem hF1 (c : Dev nD) (w : Fin cfg1.W) : (dat1 (Vb m ρ) c).arrAt w cfg1.N = W2 m ρ c (Proc.devRef .tc (Pipeline.arrRef spec1 w)) :=
  (W2_arr m ρ c w).symm
theorem hrest1 (c : Dev nD) : ∀ b, b ∉ Finset.univ.image (Pipeline.arrRef spec1) → W2 m ρ c (Proc.devRef .tc b) = Vb m ρ c b :=
  fun b hb => W2_of_ne m ρ c b fun w e => hb (Finset.mem_image.mpr ⟨w, Finset.mem_univ _, e⟩)

/-- After the host's transpose. -/
abbrev W3 : Dev nD → Valuation τ sig (Elt F) := fun c => StableHlo.after hostOps2 (W2 m ρ c)
/-- What pallas_call 2 is entered with. -/
abbrev Vd : (c : Dev nD) → (b : Ref sig .tc) → Buf (Elt F) ((c : Thread nD τ).loc b) := fun c b => W3 m ρ c b

/-- After pallas_call 2: its arrays at what the pipeline's write-backs leave, every other buffer as it was. -/
def W4 (c : Dev nD) : Valuation τ sig (Elt F) :=
  Pipeline.withArrays spec2 c (W3 m ρ c) fun w => (dat2 (Vd m ρ) c).arrAt w cfg2.N
theorem W4_arr (c : Dev nD) (w : Fin cfg2.W) :
    W4 m ρ c (Proc.devRef .tc (Pipeline.arrRef spec2 w)) = (dat2 (Vd m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem hF2 (c : Dev nD) (w : Fin cfg2.W) : (dat2 (Vd m ρ) c).arrAt w cfg2.N = W4 m ρ c (Proc.devRef .tc (Pipeline.arrRef spec2 w)) :=
  (W4_arr m ρ c w).symm
theorem hrest2 (c : Dev nD) : ∀ b, b ∉ Finset.univ.image (Pipeline.arrRef spec2) → W4 m ρ c (Proc.devRef .tc b) = Vd m ρ c b :=
  fun b hb => W4_of_ne m ρ c b fun w e => hb (Finset.mem_image.mpr ⟨w, Finset.mem_univ _, e⟩)

/-! ## The proof data family and the thread state -/

abbrev adm3 : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm3 p) c
  | ⟨0, _⟩ => fun c => dat0 (Va m ρ) c
  | ⟨1, _⟩ => fun c => dat1 (Vb m ρ) c
  | ⟨2, _⟩ => fun c => dat2 (Vd m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostTail_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Pallas_call 0 as a segment: entered with every unscoped buffer at `W0`, left with them at `W1`. Its arrays are
    split out of the unscoped buffers at entry and put back at what the write-backs leave at exit; the generator
    register goes into the region's invariant and comes back; nothing is owed; the kernel has no semaphore of its own. -/
def reg0 : Pipeline.RegionSeg (pcfgs (F := F)) adm3 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm3 (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats m ρ) ((pdats m ρ 0 c).share_full fun _ => rfl)
      (Va m ρ c) (fun b => W1 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `W1`, left with them at `W2`. Its arrays are
    split out of the unscoped buffers at entry and put back at what the write-backs leave at exit; the generator
    register goes into the region's invariant and comes back; nothing is owed; the kernel has no semaphore of its own. -/
def reg1 : Pipeline.RegionSeg (pcfgs (F := F)) adm3 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm3 (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats m ρ) ((pdats m ρ 1 c).share_full fun _ => rfl)
      (Vb m ρ c) (fun b => W2 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at `W3`, left with them at `W4`. Its arrays are
    split out of the unscoped buffers at entry and put back at what the write-backs leave at exit; the generator
    register goes into the region's invariant and comes back; nothing is owed; the kernel has no semaphore of its own. -/
def reg2 : Pipeline.RegionSeg (pcfgs (F := F)) adm3 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vd m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vd m ρ c)
  hentry c := by
    rw [Pipeline.ownSems0_none]
    have hsplit := Pipeline.arrays_of_unscopedBufs (p := 2) (pcfgs (F := F)) adm3 (pdats m ρ) launch2.win launch2.arr_whole c
      ((pdats m ρ 2 c).share_full fun _ => rfl) (Vd m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi2_last (Vd m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats m ρ) ((pdats m ρ 2 c).share_full fun _ => rfl)
      (Vd m ρ c) (fun b => W4 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm3 (pdats m ρ) () defs₀ 𝒱₀ L lv) :=
  [ .region (reg0 m ρ),
    .region (reg1 m ρ),
    .host (hseg hostOps2 hostOps2_sub hostTail_fresh (W2 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm3 (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl

theorem W1_main_arg1 (c : Dev nD) : W1 m ρ c (Proc.devRef .tc main_arg1) = m ((c : Thread nD τ).loc main_arg1) :=
  (W1_of_ne m ρ c main_arg1 (by decide)).trans rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, Finset.mem_singleton]
          exact StableHlo.devRef_ne_of_ne (by decide)))
    _ = W1 m ρ c (Proc.devRef .tc main_arg1) := (W2_arr m ρ c 0).trans (((dat1 (Vb m ρ) c).arrAt_in 0 rfl _).trans (A_eq1 (Vb m ρ) c 0))
    _ = m ((c : Thread nD τ).loc main_arg1) := W1_main_arg1 m ρ c

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_main m ρ)

end Cert.KernelIdeal.Hand

end
-- ==== Proof.Spec.lean ====
/-
  The function both programs compute at the ideal instance, over abstract extents.

  A matrix is quantized row by row.  A row's SCALE is the largest absolute value of the row divided by 127,
  floored at the single-precision number nearest 1e-8; an entry quantized at scale s is x / s rounded to the
  nearest integer (ties to even) and clipped to [-128, 127].  The result at (m, n) is the inner product of the
  quantized rows A m and B n, times the scale of row A m, times the scale of row B n.

  The row maximum is written as the fold of max from -inf over the row's positions: the form in which a lane
  reduction and a host reduction over one axis are both read.  The scalar operations (absolute value, exact
  quotient, rounding) are the ideal instance's own, used as they stand: nothing here depends on what they are,
  only on both programs applying the same ones.
-/
import Idealize.ShloMosaic.PureOps.Ideal
import Idealize.ShloMosaic.Lib.ValueIdx

noncomputable section

namespace Cert.SymQuant

open Idealize.ShloMosaic

/-- The single-precision words of -inf, 127, the scale's floor and -128, as extended reals. -/
abbrev negInf : EReal := Ideal.ofBits .f32 0xFF800000#32
abbrev qMax : EReal := Ideal.ofBits .f32 0x42FE0000#32
abbrev sFloor : EReal := Ideal.ofBits .f32 0x322BCC77#32
abbrev qMin : EReal := Ideal.ofBits .f32 0xC3000000#32

/-- The largest absolute value of a row, as a fold of max from -inf. -/
def rowAbsMax {K : Nat} (x : Fin K → EReal) : EReal :=
  (Finset.univ : Finset (Fin K)).fold max negInf fun k => FloatOps.absf (F := Ideal) (φ := .f32) (x k)

/-- A row's scale: its largest absolute value over 127, floored. -/
def rowScale {K : Nat} (x : Fin K → EReal) : EReal :=
  max (Ideal.div (rowAbsMax x) qMax) sFloor

/-- One entry quantized at scale `s`. -/
def quant (s x : EReal) : EReal :=
  min qMax (max qMin (FloatOps.roundeven (F := Ideal) (φ := .f32) (Ideal.div x s)))

/-- A row quantized at its own scale. -/
def qrow {K : Nat} (x : Fin K → EReal) (k : Fin K) : EReal := quant (rowScale x) (x k)

/-- The result: the quantized rows' inner product, rescaled by both rows' scales. -/
def out {M N K : Nat} (A : Fin M → Fin K → EReal) (B : Fin N → Fin K → EReal) (m : Fin M) (n : Fin N) : EReal :=
  ((∑ k : Fin K, qrow (A m) k * qrow (B n) k) * rowScale (A m)) * rowScale (B n)

end Cert.SymQuant

end
-- ==== Proof.QuantArrays.lean ====
/-
  From blocks to arrays, for the two quantization regions at the ideal instance.

  Each region walks its argument in blocks of 256 whole rows: grid point t reads rows 256 t … 256 t + 255, and
  writes back the block of those rows' quantized entries and the column of those rows' scales.  A row lies in
  exactly one block, and what a point computes for a row depends on that row alone, so the arrays the region
  leaves are, index by index, functions of the argument array: the entry (R, k) of the quantized array is row R
  of the argument quantized at its own scale, read at k; the entry (R, 0) of the scales' column is row R's scale;
  and the argument itself ends as it was entered.

  What one point's body computes for a row of its block is taken as a hypothesis (two per region: the scale of
  a row of the block, and a quantized entry of the block), stated over any block; everything here is the
  bookkeeping of blocks: the index maps decided over the grid, a block's element in the array at block index
  × 256 + the coordinate inside the block, and the point covering row R being R / 256.
-/
import proofs.«105469_j42520176230457_2_alg».proof.Proof.QuantRegionsIdeal
import proofs.«105469_j42520176230457_2_alg».proof.Proof.Spec
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open Cert.SymQuant

variable (V : (c : Dev nD) → (b : Ref sig .tc) → Buf (Elt Ideal) ((c : Thread nD τ).loc b))

theorem hz : (![0, 0] : Fin 2 → Nat) = fun _ => 0 := funext fun a => by fin_cases a <;> rfl

/-! # Region 0: the [8192, 4096] argument in 32 blocks of 256 rows -/

/-- The array of quantized entries as one function of the argument: row `i 0` quantized at its own scale, at `i 1`. -/
def Gq0 (A : S8192x4096.Idx → EReal) : S8192x4096.Idx → EReal := fun i =>
  qrow (fun k' : Fin 4096 => A (ix2 (⟨(i 0).val, idx2_lt0 i⟩ : Fin 8192) k')) (⟨(i 1).val, idx2_lt1 i⟩ : Fin 4096)

/-- The column of scales as one function of the argument: the scale of row `i 0`. -/
def Gs0 (A : S8192x4096.Idx → EReal) : S8192x1.Idx → EReal := fun i =>
  rowScale (fun k' : Fin 4096 => A (ix2 (⟨(i 0).val, idx2_lt0 i⟩ : Fin 8192) k'))

/-- A quantized entry of a block whose row `y 0` is row `i 0` of the array, at the same column, is the array's. -/
theorem payq0_at
    (hq : ∀ (x : Vec Ideal S256x4096 .f32) (r : Fin 256) (k : Fin 4096),
      k0_pay2 (F := Ideal) x (ix2 r k) = quant (rowScale fun k' : Fin 4096 => x (ix2 r k')) (x (ix2 r k)))
    (x : Vec Ideal S256x4096 .f32) (y : S256x4096.Idx) (A : S8192x4096.Idx → EReal) (i : S8192x4096.Idx)
    (hrow : ∀ k : Fin 4096, x (ix2 (⟨(y 0).val, idx2_lt0 y⟩ : Fin 256) k) = A (ix2 (⟨(i 0).val, idx2_lt0 i⟩ : Fin 8192) k))
    (hcol : (i 1).val = (y 1).val) :
    k0_pay2 (F := Ideal) x y = Gq0 A i := by
  have hy : y = ix2 (⟨(y 0).val, idx2_lt0 y⟩ : Fin 256) (⟨(y 1).val, idx2_lt1 y⟩ : Fin 4096) :=
    funext fun a => match a with | ⟨0, _⟩ => rfl | ⟨1, _⟩ => rfl
  refine (congrArg (k0_pay2 (F := Ideal) x) hy).trans ((hq x _ _).trans ?_)
  have hf : (fun k' : Fin 4096 => x (ix2 (⟨(y 0).val, idx2_lt0 y⟩ : Fin 256) k'))
      = fun k' : Fin 4096 => A (ix2 (⟨(i 0).val, idx2_lt0 i⟩ : Fin 8192) k') := funext hrow
  have hK : (⟨(i 1).val, idx2_lt1 i⟩ : Fin 4096) = ⟨(y 1).val, idx2_lt1 y⟩ := Fin.ext hcol
  unfold Gq0 qrow
  rw [hf, hrow, hK]

/-- The scale of a row of a block that is row `i 0` of the array is the array's. -/
theorem pays0_at
    (hs : ∀ (x : Vec Ideal S256x4096 .f32) (r : Fin 256),
      k0_pay1 (F := Ideal) x (ix2 r 0) = rowScale fun k : Fin 4096 => x (ix2 r k))
    (x : Vec Ideal S256x4096 .f32) (y : S256x1.Idx) (A : S8192x4096.Idx → EReal) (i : S8192x1.Idx)
    (hrow : ∀ k : Fin 4096, x (ix2 (⟨(y 0).val, idx2_lt0 y⟩ : Fin 256) k) = A (ix2 (⟨(i 0).val, idx2_lt0 i⟩ : Fin 8192) k)) :
    k0_pay1 (F := Ideal) x y = Gs0 A i := by
  have hy : y = ix2 (⟨(y 0).val, idx2_lt0 y⟩ : Fin 256) (0 : Fin 1) :=
    funext fun a => match a with
      | ⟨0, _⟩ => rfl
      | ⟨1, _⟩ => Fin.ext (by have := idx2_lt1 y; show (y 1).val = 0; omega)
  refine (congrArg (k0_pay1 (F := Ideal) x) hy).trans ((hs x _).trans ?_)
  have hf : (fun k' : Fin 4096 => x (ix2 (⟨(y 0).val, idx2_lt0 y⟩ : Fin 256) k'))
      = fun k' : Fin 4096 => A (ix2 (⟨(i 0).val, idx2_lt0 i⟩ : Fin 8192) k') := funext hrow
  unfold Gs0
  rw [hf]

/-- The printed index maps, decided over the grid: each window's block at point `t` is block (t, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A row of the argument's block at point `t` is row 256 t + r of the argument as the region finds it. -/
theorem iblk0_row (c : Dev nD) (t : Fin cfg0.N) (r : Fin 256) (k : Fin 4096) (i : S8192x4096.Idx)
    (hi0 : (i 0).val = t.val * 256 + r.val) (hi1 : (i 1).val = k.val) :
    (iblk0 V c 0 t : Vec Ideal S256x4096 .f32) (ix2 r k) = V c main_arg0 i := by
  obtain ⟨e00, e01, -, -, -, -⟩ := idx_facts0 t
  unfold iblk0
  rw [View.read_apply]
  show V c main_arg0 _ = V c main_arg0 i
  congr 1
  funext a
  apply Fin.ext
  match a with
  | ⟨0, _⟩ => show win0_0.index t (0 : Fin 2) * 256 + 1 * r.val = (i 0).val; omega
  | ⟨1, _⟩ => show win0_0.index t (1 : Fin 2) * 4096 + 1 * k.val = (i 1).val; omega

/-- WHAT POINT `t` WRITES BACK to the quantized array is block `t` of `Gq0` of the argument. -/
theorem flushedq0_eq
    (hq : ∀ (x : Vec Ideal S256x4096 .f32) (r : Fin 256) (k : Fin 4096),
      k0_pay2 (F := Ideal) x (ix2 r k) = quant (rowScale fun k' : Fin 4096 => x (ix2 r k')) (x (ix2 r k)))
    (c : Dev nD) (t : Fin cfg0.N) :
    (dat0 V c).flushed 1 t = ((cfg0.win 1).blk t).view.read (Elt Ideal) (Gq0 (V c main_arg0)) := by
  show (cfg0.win 1).cut (grid0.coords t) ((dat0 V c).after 1 t) = _
  rw [after0_1]
  unfold outq0
  rw [View.canon_unit_zero hz]
  simp only [View.ld_unit_zero (S := S256x4096) hz]
  obtain ⟨-, -, e10, e11, -, -⟩ := idx_facts0 t
  funext j
  show k0_pay2 (F := Ideal) (iblk0 V c 0 t) j = Gq0 (V c main_arg0) (((cfg0.win 1).blk t).view.emb j)
  refine payq0_at hq (iblk0 V c 0 t) j (V c main_arg0) (((cfg0.win 1).blk t).view.emb j) (fun k => ?_) ?_
  · refine iblk0_row V c t _ k _ ?_ rfl
    show win0_1.index t (0 : Fin 2) * 256 + 1 * (j 0).val = t.val * 256 + (j 0).val
    omega
  · show win0_1.index t (1 : Fin 2) * 4096 + 1 * (j 1).val = (j 1).val
    omega

/-- WHAT POINT `t` WRITES BACK to the scales' column is block `t` of `Gs0` of the argument. -/
theorem flusheds0_eq
    (hs : ∀ (x : Vec Ideal S256x4096 .f32) (r : Fin 256),
      k0_pay1 (F := Ideal) x (ix2 r 0) = rowScale fun k : Fin 4096 => x (ix2 r k))
    (c : Dev nD) (t : Fin cfg0.N) :
    (dat0 V c).flushed 2 t = ((cfg0.win 2).blk t).view.read (Elt Ideal) (Gs0 (V c main_arg0)) := by
  show (cfg0.win 2).cut (grid0.coords t) ((dat0 V c).after 2 t) = _
  rw [after0_2]
  unfold outs0
  rw [View.canon_unit_zero hz]
  simp only [View.ld_unit_zero (S := S256x4096) hz]
  obtain ⟨-, -, -, -, e20, e21⟩ := idx_facts0 t
  funext j
  show k0_pay1 (F := Ideal) (iblk0 V c 0 t) j = Gs0 (V c main_arg0) (((cfg0.win 2).blk t).view.emb j)
  refine pays0_at hs (iblk0 V c 0 t) j (V c main_arg0) (((cfg0.win 2).blk t).view.emb j) (fun k => ?_)
  refine iblk0_row V c t _ k _ ?_ rfl
  show win0_2.index t (0 : Fin 2) * 256 + 1 * (j 0).val = t.val * 256 + (j 0).val
  omega

/-- An index of the quantized array is in point `t`'s block iff each coordinate is in the block's range. -/
theorem mem_blkq0 (t : Fin cfg0.N) (i : S8192x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0_0).slice (win0_1.rect t)).set ↔ _
  rw [View.set_slice_whole, Rect.mem_set_unit]
  exact Iff.rfl

theorem mem_blks0 (t : Fin cfg0.N) (i : S8192x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v0_1).slice (win0_2.rect t)).set ↔ _
  rw [View.set_slice_whole, Rect.mem_set_unit]
  exact Iff.rfl

/-- Every index of the quantized array is in the block of the point its row's block index names. -/
theorem coverq0 (i : S8192x4096.Idx) :
    ∃ t : Fin cfg0.N, (cfg0.win 1).flush t = true ∧ i ∈ ((cfg0.win 1).blk t).view.set := by
  have hN : grid0.N = 32 := N_0
  have hi0 : (i 0).val < 8192 := idx2_lt0 i
  have hi1 : (i 1).val < 4096 := idx2_lt1 i
  obtain ⟨t, ht⟩ : ∃ t : Fin cfg0.N, t.val = (i 0).val / 256 :=
    ⟨⟨(i 0).val / 256, by show (i 0).val / 256 < grid0.N; rw [hN]; omega⟩, rfl⟩
  obtain ⟨-, -, e10, e11, -, -⟩ := idx_facts0 t
  refine ⟨t, flush0_1 t, ?_⟩
  rw [mem_blkq0]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 4096 ≤ (i 1).val ∧ (i 1).val < win0_1.index t (1 : Fin 2) * 4096 + 4096
    omega

theorem covers0 (i : S8192x1.Idx) :
    ∃ t : Fin cfg0.N, (cfg0.win 2).flush t = true ∧ i ∈ ((cfg0.win 2).blk t).view.set := by
  have hN : grid0.N = 32 := N_0
  have hi0 : (i 0).val < 8192 := idx2_lt0 i
  have hi1 : (i 1).val < 1 := idx2_lt1 i
  obtain ⟨t, ht⟩ : ∃ t : Fin cfg0.N, t.val = (i 0).val / 256 :=
    ⟨⟨(i 0).val / 256, by show (i 0).val / 256 < grid0.N; rw [hN]; omega⟩, rfl⟩
  obtain ⟨-, -, -, -, e20, e21⟩ := idx_facts0 t
  refine ⟨t, flush0_2 t, ?_⟩
  rw [mem_blks0]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 1 ≤ (i 1).val ∧ (i 1).val < win0_2.index t (1 : Fin 2) * 1 + 1
    omega

/-- THE QUANTIZED ARRAY after the region: `Gq0` of the argument as the region finds it. -/
theorem arrq0
    (hq : ∀ (x : Vec Ideal S256x4096 .f32) (r : Fin 256) (k : Fin 4096),
      k0_pay2 (F := Ideal) x (ix2 r k) = quant (rowScale fun k' : Fin 4096 => x (ix2 r k')) (x (ix2 r k)))
    (c : Dev nD) : (dat0 V c).arrAt 1 cfg0.N = Gq0 (V c main_arg0) :=
  (dat0 V c).arrAt_eq_of_cover 1 (Gq0 (V c main_arg0)) (fun t _ => flushedq0_eq V hq c t) coverq0

/-- THE SCALES' COLUMN after the region: `Gs0` of the argument as the region finds it. -/
theorem arrs0
    (hs : ∀ (x : Vec Ideal S256x4096 .f32) (r : Fin 256),
      k0_pay1 (F := Ideal) x (ix2 r 0) = rowScale fun k : Fin 4096 => x (ix2 r k))
    (c : Dev nD) : (dat0 V c).arrAt 2 cfg0.N = Gs0 (V c main_arg0) :=
  (dat0 V c).arrAt_eq_of_cover 2 (Gs0 (V c main_arg0)) (fun t _ => flusheds0_eq V hs c t) covers0

/-- The quantized array at (R, k): row R of the argument quantized at its own scale, at k. -/
theorem finalq0
    (hs : ∀ (x : Vec Ideal S256x4096 .f32) (r : Fin 256),
      k0_pay1 (F := Ideal) x (ix2 r 0) = rowScale fun k : Fin 4096 => x (ix2 r k))
    (hq : ∀ (x : Vec Ideal S256x4096 .f32) (r : Fin 256) (k : Fin 4096),
      k0_pay2 (F := Ideal) x (ix2 r k) = quant (rowScale fun k' : Fin 4096 => x (ix2 r k')) (x (ix2 r k)))
    (c : Dev nD) (R : Fin 8192) (k : Fin 4096) :
    (dat0 V c).arrAt 1 cfg0.N (ix2 R k) = qrow (fun k' : Fin 4096 => V c main_arg0 (ix2 R k')) k :=
  (congrFun (arrq0 V hq c) (ix2 R k)).trans rfl

/-- The scales' column at (R, 0): the scale of row R of the argument. -/
theorem finals0
    (hs : ∀ (x : Vec Ideal S256x4096 .f32) (r : Fin 256),
      k0_pay1 (F := Ideal) x (ix2 r 0) = rowScale fun k : Fin 4096 => x (ix2 r k))
    (hq : ∀ (x : Vec Ideal S256x4096 .f32) (r : Fin 256) (k : Fin 4096),
      k0_pay2 (F := Ideal) x (ix2 r k) = quant (rowScale fun k' : Fin 4096 => x (ix2 r k')) (x (ix2 r k)))
    (c : Dev nD) (R : Fin 8192) :
    (dat0 V c).arrAt 2 cfg0.N (ix2 R 0) = rowScale (fun k' : Fin 4096 => V c main_arg0 (ix2 R k')) :=
  (congrFun (arrs0 V hs c) (ix2 R 0)).trans rfl

/-- The argument's array ends as the region found it: nothing is written back to an input. -/
theorem kept0 (c : Dev nD) : (dat0 V c).arrAt 0 cfg0.N = V c main_arg0 :=
  ((dat0 V c).arrAt_in 0 rfl _).trans (A_eq0 V c 0)

/-! # Region 1: the [4096, 4096] argument in 16 blocks of 256 rows -/

/-- The array of quantized entries as one function of the argument: row `i 0` quantized at its own scale, at `i 1`. -/
def Gq1 (A : S4096x4096.Idx → EReal) : S4096x4096.Idx → EReal := fun i =>
  qrow (fun k' : Fin 4096 => A (ix2 (⟨(i 0).val, idx2_lt0 i⟩ : Fin 4096) k')) (⟨(i 1).val, idx2_lt1 i⟩ : Fin 4096)

/-- The column of scales as one function of the argument: the scale of row `i 0`. -/
def Gs1 (A : S4096x4096.Idx → EReal) : S4096x1.Idx → EReal := fun i =>
  rowScale (fun k' : Fin 4096 => A (ix2 (⟨(i 0).val, idx2_lt0 i⟩ : Fin 4096) k'))

/-- A quantized entry of a block whose row `y 0` is row `i 0` of the array, at the same column, is the array's. -/
theorem payq1_at
    (hq : ∀ (x : Vec Ideal S256x4096 .f32) (r : Fin 256) (k : Fin 4096),
      k1_pay2 (F := Ideal) x (ix2 r k) = quant (rowScale fun k' : Fin 4096 => x (ix2 r k')) (x (ix2 r k)))
    (x : Vec Ideal S256x4096 .f32) (y : S256x4096.Idx) (A : S4096x4096.Idx → EReal) (i : S4096x4096.Idx)
    (hrow : ∀ k : Fin 4096, x (ix2 (⟨(y 0).val, idx2_lt0 y⟩ : Fin 256) k) = A (ix2 (⟨(i 0).val, idx2_lt0 i⟩ : Fin 4096) k))
    (hcol : (i 1).val = (y 1).val) :
    k1_pay2 (F := Ideal) x y = Gq1 A i := by
  have hy : y = ix2 (⟨(y 0).val, idx2_lt0 y⟩ : Fin 256) (⟨(y 1).val, idx2_lt1 y⟩ : Fin 4096) :=
    funext fun a => match a with | ⟨0, _⟩ => rfl | ⟨1, _⟩ => rfl
  refine (congrArg (k1_pay2 (F := Ideal) x) hy).trans ((hq x _ _).trans ?_)
  have hf : (fun k' : Fin 4096 => x (ix2 (⟨(y 0).val, idx2_lt0 y⟩ : Fin 256) k'))
      = fun k' : Fin 4096 => A (ix2 (⟨(i 0).val, idx2_lt0 i⟩ : Fin 4096) k') := funext hrow
  have hK : (⟨(i 1).val, idx2_lt1 i⟩ : Fin 4096) = ⟨(y 1).val, idx2_lt1 y⟩ := Fin.ext hcol
  unfold Gq1 qrow
  rw [hf, hrow, hK]

/-- The scale of a row of a block that is row `i 0` of the array is the array's. -/
theorem pays1_at
    (hs : ∀ (x : Vec Ideal S256x4096 .f32) (r : Fin 256),
      k1_pay1 (F := Ideal) x (ix2 r 0) = rowScale fun k : Fin 4096 => x (ix2 r k))
    (x : Vec Ideal S256x4096 .f32) (y : S256x1.Idx) (A : S4096x4096.Idx → EReal) (i : S4096x1.Idx)
    (hrow : ∀ k : Fin 4096, x (ix2 (⟨(y 0).val, idx2_lt0 y⟩ : Fin 256) k) = A (ix2 (⟨(i 0).val, idx2_lt0 i⟩ : Fin 4096) k)) :
    k1_pay1 (F := Ideal) x y = Gs1 A i := by
  have hy : y = ix2 (⟨(y 0).val, idx2_lt0 y⟩ : Fin 256) (0 : Fin 1) :=
    funext fun a => match a with
      | ⟨0, _⟩ => rfl
      | ⟨1, _⟩ => Fin.ext (by have := idx2_lt1 y; show (y 1).val = 0; omega)
  refine (congrArg (k1_pay1 (F := Ideal) x) hy).trans ((hs x _).trans ?_)
  have hf : (fun k' : Fin 4096 => x (ix2 (⟨(y 0).val, idx2_lt0 y⟩ : Fin 256) k'))
      = fun k' : Fin 4096 => A (ix2 (⟨(i 0).val, idx2_lt0 i⟩ : Fin 4096) k') := funext hrow
  unfold Gs1
  rw [hf]

/-- The printed index maps, decided over the grid: each window's block at point `t` is block (t, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- A row of the argument's block at point `t` is row 256 t + r of the argument as the region finds it. -/
theorem iblk1_row (c : Dev nD) (t : Fin cfg1.N) (r : Fin 256) (k : Fin 4096) (i : S4096x4096.Idx)
    (hi0 : (i 0).val = t.val * 256 + r.val) (hi1 : (i 1).val = k.val) :
    (iblk1 V c 0 t : Vec Ideal S256x4096 .f32) (ix2 r k) = V c main_arg1 i := by
  obtain ⟨e00, e01, -, -, -, -⟩ := idx_facts1 t
  unfold iblk1
  rw [View.read_apply]
  show V c main_arg1 _ = V c main_arg1 i
  congr 1
  funext a
  apply Fin.ext
  match a with
  | ⟨0, _⟩ => show win1_0.index t (0 : Fin 2) * 256 + 1 * r.val = (i 0).val; omega
  | ⟨1, _⟩ => show win1_0.index t (1 : Fin 2) * 4096 + 1 * k.val = (i 1).val; omega

/-- WHAT POINT `t` WRITES BACK to the quantized array is block `t` of `Gq1` of the argument. -/
theorem flushedq1_eq
    (hq : ∀ (x : Vec Ideal S256x4096 .f32) (r : Fin 256) (k : Fin 4096),
      k1_pay2 (F := Ideal) x (ix2 r k) = quant (rowScale fun k' : Fin 4096 => x (ix2 r k')) (x (ix2 r k)))
    (c : Dev nD) (t : Fin cfg1.N) :
    (dat1 V c).flushed 1 t = ((cfg1.win 1).blk t).view.read (Elt Ideal) (Gq1 (V c main_arg1)) := by
  show (cfg1.win 1).cut (grid1.coords t) ((dat1 V c).after 1 t) = _
  rw [after1_1]
  unfold outq1
  rw [View.canon_unit_zero hz]
  simp only [View.ld_unit_zero (S := S256x4096) hz]
  obtain ⟨-, -, e10, e11, -, -⟩ := idx_facts1 t
  funext j
  show k1_pay2 (F := Ideal) (iblk1 V c 0 t) j = Gq1 (V c main_arg1) (((cfg1.win 1).blk t).view.emb j)
  refine payq1_at hq (iblk1 V c 0 t) j (V c main_arg1) (((cfg1.win 1).blk t).view.emb j) (fun k => ?_) ?_
  · refine iblk1_row V c t _ k _ ?_ rfl
    show win1_1.index t (0 : Fin 2) * 256 + 1 * (j 0).val = t.val * 256 + (j 0).val
    omega
  · show win1_1.index t (1 : Fin 2) * 4096 + 1 * (j 1).val = (j 1).val
    omega

/-- WHAT POINT `t` WRITES BACK to the scales' column is block `t` of `Gs1` of the argument. -/
theorem flusheds1_eq
    (hs : ∀ (x : Vec Ideal S256x4096 .f32) (r : Fin 256),
      k1_pay1 (F := Ideal) x (ix2 r 0) = rowScale fun k : Fin 4096 => x (ix2 r k))
    (c : Dev nD) (t : Fin cfg1.N) :
    (dat1 V c).flushed 2 t = ((cfg1.win 2).blk t).view.read (Elt Ideal) (Gs1 (V c main_arg1)) := by
  show (cfg1.win 2).cut (grid1.coords t) ((dat1 V c).after 2 t) = _
  rw [after1_2]
  unfold outs1
  rw [View.canon_unit_zero hz]
  simp only [View.ld_unit_zero (S := S256x4096) hz]
  obtain ⟨-, -, -, -, e20, e21⟩ := idx_facts1 t
  funext j
  show k1_pay1 (F := Ideal) (iblk1 V c 0 t) j = Gs1 (V c main_arg1) (((cfg1.win 2).blk t).view.emb j)
  refine pays1_at hs (iblk1 V c 0 t) j (V c main_arg1) (((cfg1.win 2).blk t).view.emb j) (fun k => ?_)
  refine iblk1_row V c t _ k _ ?_ rfl
  show win1_2.index t (0 : Fin 2) * 256 + 1 * (j 0).val = t.val * 256 + (j 0).val
  omega

/-- An index of the quantized array is in point `t`'s block iff each coordinate is in the block's range. -/
theorem mem_blkq1 (t : Fin cfg1.N) (i : S4096x4096.Idx) :
    i ∈ ((cfg1.win 1).blk t).view.set ↔ ∀ a : Fin 2, win1_1.index t a * S256x4096.size a ≤ (i a).val
      ∧ (i a).val < win1_1.index t a * S256x4096.size a + S256x4096.size a := by
  show i ∈ ((View.whole main_v1_0).slice (win1_1.rect t)).set ↔ _
  rw [View.set_slice_whole, Rect.mem_set_unit]
  exact Iff.rfl

theorem mem_blks1 (t : Fin cfg1.N) (i : S4096x1.Idx) :
    i ∈ ((cfg1.win 2).blk t).view.set ↔ ∀ a : Fin 2, win1_2.index t a * S256x1.size a ≤ (i a).val
      ∧ (i a).val < win1_2.index t a * S256x1.size a + S256x1.size a := by
  show i ∈ ((View.whole main_v1_1).slice (win1_2.rect t)).set ↔ _
  rw [View.set_slice_whole, Rect.mem_set_unit]
  exact Iff.rfl

/-- Every index of the quantized array is in the block of the point its row's block index names. -/
theorem coverq1 (i : S4096x4096.Idx) :
    ∃ t : Fin cfg1.N, (cfg1.win 1).flush t = true ∧ i ∈ ((cfg1.win 1).blk t).view.set := by
  have hN : grid1.N = 16 := N_1
  have hi0 : (i 0).val < 4096 := idx2_lt0 i
  have hi1 : (i 1).val < 4096 := idx2_lt1 i
  obtain ⟨t, ht⟩ : ∃ t : Fin cfg1.N, t.val = (i 0).val / 256 :=
    ⟨⟨(i 0).val / 256, by show (i 0).val / 256 < grid1.N; rw [hN]; omega⟩, rfl⟩
  obtain ⟨-, -, e10, e11, -, -⟩ := idx_facts1 t
  refine ⟨t, flush1_1 t, ?_⟩
  rw [mem_blkq1]
  intro a
  match a with
  | ⟨0, _⟩ =>
    show win1_1.index t (0 : Fin 2) * 256 ≤ (i 0).val ∧ (i 0).val < win1_1.index t (0 : Fin 2) * 256 + 256
    omega
  | ⟨1, _⟩ =>
    show win1_1.index t (1 : Fin 2) * 4096 ≤ (i 1).val ∧ (i 1).val < win1_1.index t (1 : Fin 2) * 4096 + 4096
    omega

theorem covers1 (i : S4096x1.Idx) :
    ∃ t : Fin cfg1.N, (cfg1.win 2).flush t = true ∧ i ∈ ((cfg1.win 2).blk t).view.set := by
  have hN : grid1.N = 16 := N_1
  have hi0 : (i 0).val < 4096 := idx2_lt0 i
  have hi1 : (i 1).val < 1 := idx2_lt1 i
  obtain ⟨t, ht⟩ : ∃ t : Fin cfg1.N, t.val = (i 0).val / 256 :=
    ⟨⟨(i 0).val / 256, by show (i 0).val / 256 < grid1.N; rw [hN]; omega⟩, rfl⟩
  obtain ⟨-, -, -, -, e20, e21⟩ := idx_facts1 t
  refine ⟨t, flush1_2 t, ?_⟩
  rw [mem_blks1]
  intro a
  match a with
  | ⟨0, _⟩ =>
    show win1_2.index t (0 : Fin 2) * 256 ≤ (i 0).val ∧ (i 0).val < win1_2.index t (0 : Fin 2) * 256 + 256
    omega
  | ⟨1, _⟩ =>
    show win1_2.index t (1 : Fin 2) * 1 ≤ (i 1).val ∧ (i 1).val < win1_2.index t (1 : Fin 2) * 1 + 1
    omega

/-- THE QUANTIZED ARRAY after the region: `Gq1` of the argument as the region finds it. -/
theorem arrq1
    (hq : ∀ (x : Vec Ideal S256x4096 .f32) (r : Fin 256) (k : Fin 4096),
      k1_pay2 (F := Ideal) x (ix2 r k) = quant (rowScale fun k' : Fin 4096 => x (ix2 r k')) (x (ix2 r k)))
    (c : Dev nD) : (dat1 V c).arrAt 1 cfg1.N = Gq1 (V c main_arg1) :=
  (dat1 V c).arrAt_eq_of_cover 1 (Gq1 (V c main_arg1)) (fun t _ => flushedq1_eq V hq c t) coverq1

/-- THE SCALES' COLUMN after the region: `Gs1` of the argument as the region finds it. -/
theorem arrs1
    (hs : ∀ (x : Vec Ideal S256x4096 .f32) (r : Fin 256),
      k1_pay1 (F := Ideal) x (ix2 r 0) = rowScale fun k : Fin 4096 => x (ix2 r k))
    (c : Dev nD) : (dat1 V c).arrAt 2 cfg1.N = Gs1 (V c main_arg1) :=
  (dat1 V c).arrAt_eq_of_cover 2 (Gs1 (V c main_arg1)) (fun t _ => flusheds1_eq V hs c t) covers1

/-- The quantized array at (R, k): row R of the argument quantized at its own scale, at k. -/
theorem finalq1
    (hs : ∀ (x : Vec Ideal S256x4096 .f32) (r : Fin 256),
      k1_pay1 (F := Ideal) x (ix2 r 0) = rowScale fun k : Fin 4096 => x (ix2 r k))
    (hq : ∀ (x : Vec Ideal S256x4096 .f32) (r : Fin 256) (k : Fin 4096),
      k1_pay2 (F := Ideal) x (ix2 r k) = quant (rowScale fun k' : Fin 4096 => x (ix2 r k')) (x (ix2 r k)))
    (c : Dev nD) (R : Fin 4096) (k : Fin 4096) :
    (dat1 V c).arrAt 1 cfg1.N (ix2 R k) = qrow (fun k' : Fin 4096 => V c main_arg1 (ix2 R k')) k :=
  (congrFun (arrq1 V hq c) (ix2 R k)).trans rfl

/-- The scales' column at (R, 0): the scale of row R of the argument. -/
theorem finals1
    (hs : ∀ (x : Vec Ideal S256x4096 .f32) (r : Fin 256),
      k1_pay1 (F := Ideal) x (ix2 r 0) = rowScale fun k : Fin 4096 => x (ix2 r k))
    (hq : ∀ (x : Vec Ideal S256x4096 .f32) (r : Fin 256) (k : Fin 4096),
      k1_pay2 (F := Ideal) x (ix2 r k) = quant (rowScale fun k' : Fin 4096 => x (ix2 r k')) (x (ix2 r k)))
    (c : Dev nD) (R : Fin 4096) :
    (dat1 V c).arrAt 2 cfg1.N (ix2 R 0) = rowScale (fun k' : Fin 4096 => V c main_arg1 (ix2 R k')) :=
  (congrFun (arrs1 V hs c) (ix2 R 0)).trans rfl

/-- The argument's array ends as the region found it: nothing is written back to an input. -/
theorem kept1 (c : Dev nD) : (dat1 V c).arrAt 0 cfg1.N = V c main_arg1 :=
  ((dat1 V c).arrAt_in 0 rfl _).trans (A_eq1 V c 0)

end Cert.KernelIdeal.HandValue

end
-- ==== Proof.Payloads.lean ====
/-
  The two quantizing kernels' arithmetic at an index: the row scale each stores at (r, 0) is the row's largest
  absolute value (the fold of max from -inf over the row) over 127, floored; the entry each stores at (r, k) is the
  input's entry quantized at that scale. The scalar operations (absolute value, exact quotient, rounding) stay the
  ideal instance's own throughout: nothing here opens them.
-/
import proofs.«105469_j42520176230457_2_alg».proof.Proof.Gen.KernelIdeal.Skeleton
import proofs.«105469_j42520176230457_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.SymQuant.Pay

open Idealize.ShloMosaic Idealize.ShloMosaic.ValueIdx Cert.KernelIdeal Cert.KernelIdeal.Gen

/-- A column broadcast along the rows: an [a, 1] array broadcast to [a, b] reads, at (p, c), the column's entry at p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Inserting the coordinate k on the reduced axis of the row index r gives the matrix index (r, k). -/
theorem lift_row (h : S256x4096.Reduces [1] S256) (r : Fin 256) (k : Fin 4096) : h.lift (ix1 r) k = ix2 r k :=
  funext fun a => Fin.ext (by
    match a with
    | ⟨0, _⟩ => rfl
    | ⟨1, _⟩ => rfl)

/-- The lane max-reduction of the absolute values from -inf, read at row r: the fold of max from -inf over the
    row's positions. -/
theorem rowmax_at (x : FVec Ideal S256x4096 .f32) (h : S256x4096.Reduces [1] S256) (hφ : FKind.Formats .f32)
    (hacc : (0xFF800000#32 : BitVec 32) = FKind.maximumf.neutral .f32 hφ) (r : Fin 256) :
    multiReduction .maximumf [1] S256 (absf x) 0xFF800000#32 h hφ hacc (ix1 r)
      = rowAbsMax (fun k : Fin 4096 => x (ix2 r k)) := by
  refine (Ideal.multiReduction_maximumf_single (absf x) 0xFF800000#32 h hφ hacc (ix1 r)).trans ?_
  have e : (absf x ∘ h.lift (ix1 r) : Fin 4096 → EReal)
      = fun k : Fin 4096 => FloatOps.absf (F := Ideal) (φ := .f32) (x (ix2 r k)) :=
    funext fun k => congrArg (fun i => FloatOps.absf (F := Ideal) (φ := .f32) (x i)) (lift_row h r k)
  exact congrArg (fun g : Fin 4096 → EReal => (Finset.univ : Finset (Fin 4096)).fold max negInf g) e

/-- The row scale the quantizing kernel stores at (r, 0): the row's largest absolute value over 127, floored. -/
theorem scale0_at (x : Vec Ideal S256x4096 .f32) (r : Fin 256) :
    k0_pay1 (F := Ideal) x (ix2 r 0) = rowScale (fun k : Fin 4096 => x (ix2 r k)) := by
  unfold k0_pay1
  rw [maximumf_apply, divf_apply, broadcast_apply, broadcast_apply, shapeCast_a_a1_apply]
  unfold rowScale
  exact congrArg (fun m => max (Ideal.div m qMax) sFloor) (rowmax_at x _ _ _ r)

/-- Rounding to the nearest integer, ties to even, acts entry by entry. -/
theorem roundeven_apply {s : Shape} {φ : FTy} (a : FVec Ideal s φ) (i : s.Idx) :
    roundeven a i = FloatOps.roundeven (a i) := rfl

/-- The entry the quantizing kernel stores at (r, k): the input's entry quantized at its row's scale (the scale
    column broadcast along the row, the exact quotient, rounding, clipping to [-128, 127]; the narrowing of the
    format changes no extended real). -/
theorem quant0_at (x : Vec Ideal S256x4096 .f32) (r : Fin 256) (k : Fin 4096) :
    k0_pay2 (F := Ideal) x (ix2 r k)
      = quant (rowScale (fun k' : Fin 4096 => x (ix2 r k'))) (x (ix2 r k)) := by
  unfold k0_pay2
  rw [truncf_apply, minimumf_apply, maximumf_apply, broadcast_apply, broadcast_apply, roundeven_apply, divf_apply,
    broadcastTo_col_apply, scale0_at]
  rfl

/-- The second quantizing kernel's text is the first one's: the same two functions. -/
theorem k1_pay1_eq : k1_pay1 (F := Ideal) = k0_pay1 (F := Ideal) := rfl
/-- Likewise for the quantized entries. -/
theorem k1_pay2_eq : k1_pay2 (F := Ideal) = k0_pay2 (F := Ideal) := rfl

/-- The second quantizing kernel's row scale at (r, 0). -/
theorem scale1_at (x : Vec Ideal S256x4096 .f32) (r : Fin 256) :
    k1_pay1 (F := Ideal) x (ix2 r 0) = rowScale (fun k : Fin 4096 => x (ix2 r k)) :=
  (congrFun (congrFun k1_pay1_eq x) (ix2 r 0)).trans (scale0_at x r)

/-- The second quantizing kernel's entry at (r, k). -/
theorem quant1_at (x : Vec Ideal S256x4096 .f32) (r : Fin 256) (k : Fin 4096) :
    k1_pay2 (F := Ideal) x (ix2 r k)
      = quant (rowScale (fun k' : Fin 4096 => x (ix2 r k'))) (x (ix2 r k)) :=
  (congrFun (congrFun k1_pay2_eq x) (ix2 r k)).trans (quant0_at x r k)

end Cert.SymQuant.Pay

end
-- ==== Proof.KernelValue.lean ====
/-
  The program's result, index by index, is the specification's.

  The result array is what the matrix-product region leaves.  That region reads four arrays: the quantized A and
  the quantized B, the column of A's scales, and the row of B's scales — the host's transpose of the column the
  second quantization region left.  Walking each back to where it was written: the host operation writes only the
  transposed row, a later region leaves an earlier region's arrays as they were, and each quantization region leaves
  its two arrays at functions of its argument, which it found as launched.  So the entry (M, k) of the quantized A is
  row M of A quantized at its own scale, at k; likewise B; the scale read at (M, 0) is row M's; and the transposed
  row at (0, N) is the column at (N, 0), the scale of row N of B.  The matrix-product region's closed form — the
  sum over k of the two quantized entries, times the two scales — is taken as a hypothesis; with the four reads it
  is the specification's value at (M, N).
-/
import proofs.«105469_j42520176230457_2_alg».proof.Proof.RunIdeal
import proofs.«105469_j42520176230457_2_alg».proof.Proof.QuantArrays
import proofs.«105469_j42520176230457_2_alg».proof.Proof.Payloads
import proofs.«105469_j42520176230457_2_alg».proof.Proof.Spec
import Idealize.ShloMosaic.Lib.Pipeline.Value
import Idealize.ShloMosaic.Lib.ValueIdx
import Idealize.ShloMosaic.Lib.StableHlo.Run

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open Cert.SymQuant

variable (m : (ℓ : Loc nD τ sig) → Buf (Elt Ideal) ℓ) (ρ : Dev nD → PrngReg)

/-! ## The host operation writes only the transposed row -/

/-- A buffer other than the transposed row is, after the host operation, as the second region left it. -/
theorem host_keeps (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    exact StableHlo.devRef_ne_of_ne hb))

/-! ## The four arrays the matrix-product region reads, walked back -/

/-- The quantized A, as the matrix-product region finds it, is what the first region left. -/
theorem entry_qA (c : Dev nD) : Vd m ρ c main_v0_0 = (dat0 (Va m ρ) c).arrAt 1 cfg0.N :=
  calc Vd m ρ c main_v0_0
    _ = W2 m ρ c (Proc.devRef .tc main_v0_0) := host_keeps m ρ c main_v0_0 (by decide)
    _ = W1 m ρ c (Proc.devRef .tc main_v0_0) := W2_of_ne m ρ c main_v0_0 (by decide)
    _ = (dat0 (Va m ρ) c).arrAt 1 cfg0.N := W1_arr m ρ c 1

/-- The column of A's scales, as the matrix-product region finds it, is what the first region left. -/
theorem entry_sA (c : Dev nD) : Vd m ρ c main_v0_1 = (dat0 (Va m ρ) c).arrAt 2 cfg0.N :=
  calc Vd m ρ c main_v0_1
    _ = W2 m ρ c (Proc.devRef .tc main_v0_1) := host_keeps m ρ c main_v0_1 (by decide)
    _ = W1 m ρ c (Proc.devRef .tc main_v0_1) := W2_of_ne m ρ c main_v0_1 (by decide)
    _ = (dat0 (Va m ρ) c).arrAt 2 cfg0.N := W1_arr m ρ c 2

/-- The quantized B, as the matrix-product region finds it, is what the second region left. -/
theorem entry_qB (c : Dev nD) : Vd m ρ c main_v1_0 = (dat1 (Vb m ρ) c).arrAt 1 cfg1.N :=
  calc Vd m ρ c main_v1_0
    _ = W2 m ρ c (Proc.devRef .tc main_v1_0) := host_keeps m ρ c main_v1_0 (by decide)
    _ = (dat1 (Vb m ρ) c).arrAt 1 cfg1.N := W2_arr m ρ c 1

/-- The row of B's scales is the host's transpose of the column the second region left. -/
theorem entry_sBt (c : Dev nD) :
    (Vd m ρ c main_v2 : S1x4096.Idx → EReal)
      = transpose S1x4096 [1, 0] (W2 m ρ c (Proc.devRef .tc main_v1_1) : S4096x1.Idx → EReal) transposes_S4096x1_S1x4096_1_0 := by
  show StableHlo.after hostOps2 _ (Proc.devRef .tc main_v2) = _
  after_results

/-- Read at (0, N) the transposed row is the column at (N, 0). -/
theorem entry_sB_at (c : Dev nD) (N : Fin 4096) :
    (Vd m ρ c main_v2 : S1x4096.Idx → EReal) (ix2 (0 : Fin 1) N)
      = ((dat1 (Vb m ρ) c).arrAt 2 cfg1.N : S4096x1.Idx → EReal) (ix2 N (0 : Fin 1)) := by
  have hcol : (W2 m ρ c (Proc.devRef .tc main_v1_1) : S4096x1.Idx → EReal) = (dat1 (Vb m ρ) c).arrAt 2 cfg1.N :=
    W2_arr m ρ c 2
  rw [entry_sBt m ρ c]
  refine (transpose_apply [1, 0] _ transposes_S4096x1_S1x4096_1_0 (ix2 (0 : Fin 1) N) (ix2 N (0 : Fin 1)) (fun b => match b with
    | ⟨0, _⟩ => rfl
    | ⟨1, _⟩ => rfl)).trans ?_
  exact congrFun hcol (ix2 N (0 : Fin 1))

/-! ## The four reads as the specification's terms -/

/-- The quantized A at (M, k): row M of the launched A quantized at its own scale, at k. -/
theorem qA_at (c : Dev nD) (M : Fin 8192) (k : Fin 4096) :
    (Vd m ρ c main_v0_0 : S8192x4096.Idx → EReal) (ix2 M k)
      = qrow (fun k' : Fin 4096 => m ((c.tc : Thread nD τ).loc main_arg0) (ix2 M k')) k :=
  (congrFun (entry_qA m ρ c) (ix2 M k)).trans
    (finalq0 (Va m ρ) Cert.SymQuant.Pay.scale0_at Cert.SymQuant.Pay.quant0_at c M k)

/-- The scale of A read at (M, 0): the scale of row M of the launched A. -/
theorem sA_at (c : Dev nD) (M : Fin 8192) :
    (Vd m ρ c main_v0_1 : S8192x1.Idx → EReal) (ix2 M (0 : Fin 1))
      = rowScale (fun k' : Fin 4096 => m ((c.tc : Thread nD τ).loc main_arg0) (ix2 M k')) :=
  (congrFun (entry_sA m ρ c) (ix2 M (0 : Fin 1))).trans
    (finals0 (Va m ρ) Cert.SymQuant.Pay.scale0_at Cert.SymQuant.Pay.quant0_at c M)

/-- The second region finds B as launched: the first region does not touch it. -/
theorem entry_B (c : Dev nD) :
    (Vb m ρ c main_arg1 : S4096x4096.Idx → EReal) = m ((c.tc : Thread nD τ).loc main_arg1) :=
  W1_main_arg1 m ρ c

/-- The quantized B at (N, k): row N of the launched B quantized at its own scale, at k. -/
theorem qB_at (c : Dev nD) (N : Fin 4096) (k : Fin 4096) :
    (Vd m ρ c main_v1_0 : S4096x4096.Idx → EReal) (ix2 N k)
      = qrow (fun k' : Fin 4096 => m ((c.tc : Thread nD τ).loc main_arg1) (ix2 N k')) k :=
  ((congrFun (entry_qB m ρ c) (ix2 N k)).trans
    (finalq1 (Vb m ρ) Cert.SymQuant.Pay.scale1_at Cert.SymQuant.Pay.quant1_at c N k)).trans
    (congrArg (fun f : S4096x4096.Idx → EReal => qrow (fun k' : Fin 4096 => f (ix2 N k')) k) (entry_B m ρ c))

/-- The scale of B read at (0, N) of the transposed row: the scale of row N of the launched B. -/
theorem sB_at (c : Dev nD) (N : Fin 4096) :
    (Vd m ρ c main_v2 : S1x4096.Idx → EReal) (ix2 (0 : Fin 1) N)
      = rowScale (fun k' : Fin 4096 => m ((c.tc : Thread nD τ).loc main_arg1) (ix2 N k')) :=
  ((entry_sB_at m ρ c N).trans
    (finals1 (Vb m ρ) Cert.SymQuant.Pay.scale1_at Cert.SymQuant.Pay.quant1_at c N)).trans
    (congrArg (fun f : S4096x4096.Idx → EReal => rowScale (fun k' : Fin 4096 => f (ix2 N k'))) (entry_B m ρ c))

/-! ## The result -/

/-- THE PROGRAM'S RESULT AT (M, N) is the specification's: the quantized rows' inner product, times the scale of
    A's row M, times the scale of B's row N — given the matrix-product region's closed form, stated over the four
    arrays that region reads. -/
theorem result_at
    (hmm : ∀ (V : (c : Dev nD) → (b : Ref sig .tc) → Buf (Elt Ideal) ((c : Thread nD τ).loc b)) (c : Dev nD)
      (qa : S8192x4096.Idx → EReal) (qb : S4096x4096.Idx → EReal) (sa : S8192x1.Idx → EReal) (sb : S1x4096.Idx → EReal),
      (V c main_v0_0 : S8192x4096.Idx → EReal) = qa → (V c main_v1_0 : S4096x4096.Idx → EReal) = qb →
      (V c main_v0_1 : S8192x1.Idx → EReal) = sa → (V c main_v2 : S1x4096.Idx → EReal) = sb →
      ∀ (M : Fin 8192) (N : Fin 4096), (Cert.KernelIdeal.Hand.dat2 V c).arrAt 4 cfg2.N (ix2 M N)
        = ((∑ k : Fin 4096, qa (ix2 M k) * qb (ix2 N k)) * sa (ix2 M 0)) * sb (ix2 0 N))
    (c : Dev nD) (M : Fin 8192) (N : Fin 4096) :
    Cert.KernelIdeal.Hand.W4 m ρ c (Proc.devRef .tc main_v3) (ix2 M N)
      = Cert.SymQuant.out (fun r k => m ((c.tc : Thread nD τ).loc main_arg0) (ix2 r k))
          (fun r k => m ((c.tc : Thread nD τ).loc main_arg1) (ix2 r k)) M N := by
  obtain ⟨qa, hqa⟩ : ∃ qa : S8192x4096.Idx → EReal, (Vd m ρ c main_v0_0 : S8192x4096.Idx → EReal) = qa := ⟨_, rfl⟩
  obtain ⟨qb, hqb⟩ : ∃ qb : S4096x4096.Idx → EReal, (Vd m ρ c main_v1_0 : S4096x4096.Idx → EReal) = qb := ⟨_, rfl⟩
  obtain ⟨sa, hsa⟩ : ∃ sa : S8192x1.Idx → EReal, (Vd m ρ c main_v0_1 : S8192x1.Idx → EReal) = sa := ⟨_, rfl⟩
  obtain ⟨sb, hsb⟩ : ∃ sb : S1x4096.Idx → EReal, (Vd m ρ c main_v2 : S1x4096.Idx → EReal) = sb := ⟨_, rfl⟩
  have hA : ∀ k : Fin 4096, qa (ix2 M k) = qrow (fun k' : Fin 4096 => m ((c.tc : Thread nD τ).loc main_arg0) (ix2 M k')) k :=
    fun k => (congrFun hqa.symm (ix2 M k)).trans (qA_at m ρ c M k)
  have hB : ∀ k : Fin 4096, qb (ix2 N k) = qrow (fun k' : Fin 4096 => m ((c.tc : Thread nD τ).loc main_arg1) (ix2 N k')) k :=
    fun k => (congrFun hqb.symm (ix2 N k)).trans (qB_at m ρ c N k)
  have hSA : sa (ix2 M 0) = rowScale (fun k' : Fin 4096 => m ((c.tc : Thread nD τ).loc main_arg0) (ix2 M k')) :=
    (congrFun hsa.symm (ix2 M (0 : Fin 1))).trans (sA_at m ρ c M)
  have hSB : sb (ix2 0 N) = rowScale (fun k' : Fin 4096 => m ((c.tc : Thread nD τ).loc main_arg1) (ix2 N k')) :=
    (congrFun hsb.symm (ix2 (0 : Fin 1) N)).trans (sB_at m ρ c N)
  have hsum : (∑ k : Fin 4096, qa (ix2 M k) * qb (ix2 N k))
      = ∑ k : Fin 4096, qrow (fun k' : Fin 4096 => m ((c.tc : Thread nD τ).loc main_arg0) (ix2 M k')) k
          * qrow (fun k' : Fin 4096 => m ((c.tc : Thread nD τ).loc main_arg1) (ix2 N k')) k :=
    Finset.sum_congr rfl fun k _ => congrArg₂ (· * ·) (hA k) (hB k)
  refine (congrFun (W4_arr m ρ c 4) (ix2 M N)).trans ((hmm (Vd m ρ) c qa qb sa sb hqa hqb hsa hsb M N).trans ?_)
  unfold Cert.SymQuant.out
  exact congrArg₂ (· * ·) (congrArg₂ (· * ·) hsum hSA) hSB

end Cert.KernelIdeal.HandValue

end
-- ==== Proof.MatmulPieces.lean ====
/-
  What the matrix-product body leaves behind, case by case, as values. At a first half of the contracted axis the
  accumulator ends at the half's product added to the zero block just stored into it; at a second half it ends at
  the half's product added to what it held, and the output block at that sum rescaled by the rows' and the columns'
  scales. Each is the one covering store's payload, whose loads read whole buffers (or, for a load of the accumulator
  after a store into it, what was just stored).
-/
import proofs.«105469_j42520176230457_2_alg».proof.Proof.MatmulRegionIdeal
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

/-- The zero offsets of a whole-buffer load or store. -/
theorem hz : (![0, 0] : Fin 2 → Nat) = fun _ => 0 := funext fun a => by fin_cases a <;> rfl

/-- FIRST HALF: the accumulator ends at the half's product added to the zero block. -/
theorem sout2_A_0_eq (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬cond2_1 i) (x0 : Vec F S1024x2048 .bf16) (x1 : Vec F S1024x2048 .bf16) (x2 : Vec F S1024x1 .f32) (x3 : Vec F S1x1024 .f32) :
    sout2_A_0 c i arg3 harg3 arg4 harg4 arg5 harg5 arg6 harg6 arg7 harg7 arg8 harg8 hc0 hc1 x0 x1 x2 x3 = k2_pay2 x0 x1 (k2_pay1 (F := F)) := by
  unfold sout2_A_0
  rw [View.read_writes_eq_canon _ _ _ (scover2_A_0 c i arg3 harg3 arg4 harg4 arg5 harg5 arg6 harg6 arg7 harg7 arg8 harg8 hc0 hc1 x0 x1 x2 x3)]
  unfold kernelRun2_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz]

/-- SECOND HALF: the accumulator ends at the half's product added to what it held … -/
theorem sout2_B_0_eq (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) :
    sout2_B_0 c i arg3 harg3 arg4 harg4 arg5 harg5 arg6 harg6 arg7 harg7 arg8 harg8 hc0 hc1 x0 x1 x2 x3 xs0 = k2_pay2 x0 x1 xs0 := by
  unfold sout2_B_0
  rw [View.read_writes_eq_canon _ _ _ (scover2_B_0 c i arg3 harg3 arg4 harg4 arg5 harg5 arg6 harg6 arg7 harg7 arg8 harg8 hc0 hc1 x0 x1 x2 x3 xs0)]
  unfold kernelRun2_B
  dsimp only
  sl_unfold_words
  rw [View.canon_unit_zero hz]
  simp only [View.readAt_eq_ld, harg3.read_unread, harg4.read_unread, harg8.read_unread,
    View.ld_unit_zero (S := S1024x2048) hz, View.ld_unit_zero (S := S1024x1024) hz]

/-- … and the output block at that sum, rescaled by the column of left scales and the row of right scales. -/
theorem out2_B_4_eq (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : cond2_1 i) (x0 : Vec F S1024x2048 .bf16) (x1 : Vec F S1024x2048 .bf16) (x2 : Vec F S1024x1 .f32) (x3 : Vec F S1x1024 .f32) (xs0 : Vec F S1024x1024 .f32) :
    out2_B_4 c i arg3 harg3 arg4 harg4 arg5 harg5 arg6 harg6 arg7 harg7 arg8 harg8 hc0 hc1 x0 x1 x2 x3 xs0 = k2_pay3 x2 x3 (k2_pay2 x0 x1 xs0) := by
  unfold out2_B_4
  rw [View.read_writes_eq_canon _ _ _ (cover2_B_4 c i arg3 harg3 arg4 harg4 arg5 harg5 arg6 harg6 arg7 harg7 arg8 harg8 hc0 hc1 x0 x1 x2 x3 xs0)]
  unfold kernelRun2_B
  dsimp only
  sl_unfold_words
  rw [View.canon_unit_zero hz, View.readCov_unit_zero (S := S1024x1024) _ hz]
  simp only [View.readAt_eq_ld, harg3.read_unread, harg4.read_unread, harg5.read_unread, harg6.read_unread,
    harg8.read_unread, View.ld_unit_zero (S := S1024x2048) hz, View.ld_unit_zero (S := S1024x1024) hz,
    View.ld_unit_zero (S := S1024x1) hz, View.ld_unit_zero (S := S1x1024) hz]

end Cert.KernelIdeal.HandValue

end
-- ==== Proof.PayloadsMatmul.lean ====
/-
  The matrix-product kernel's arithmetic at an index: the zero accumulator, one accumulation step (the accumulator
  plus the inner product of a row of the left operand with a row of the right one, both contracted along their
  second axis), the final rescaling by a column of left scales and a row of right scales, and the splitting of a
  sum over 4096 positions into its two halves of 2048.
-/
import proofs.«105469_j42520176230457_2_alg».proof.Proof.Gen.KernelIdeal.Skeleton
import proofs.«105469_j42520176230457_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.SymQuant.Pay

open Idealize.ShloMosaic Idealize.ShloMosaic.ValueIdx Cert.KernelIdeal Cert.KernelIdeal.Gen

/-- The zero accumulator: the zero word is the extended real 0, and a cast of a shape to itself changes nothing. -/
theorem acc_zero_at (p q : Fin 1024) : k2_pay1 (F := Ideal) (ix2 p q) = 0 := by
  unfold k2_pay1
  rw [shapeCast_self]
  exact Ideal.ofBits_zero_f32

/-- The left operand's index at an output index i and a contraction coordinate c has row (i 0) … -/
theorem lhs_row (i : S1024x1024.Idx) (c : dot_S1024x2048_S1024x2048_S1024x1024_1_1_0_0_n_n.contr.Idx) :
    (dot_S1024x2048_S1024x2048_S1024x1024_1_1_0_0_n_n.lhsIdx i c 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl
/-- … and column the contraction coordinate. -/
theorem lhs_col (i : S1024x1024.Idx) (c : dot_S1024x2048_S1024x2048_S1024x1024_1_1_0_0_n_n.contr.Idx) :
    (dot_S1024x2048_S1024x2048_S1024x1024_1_1_0_0_n_n.lhsIdx i c 1).val = (c ⟨0, by decide⟩).val :=
  dot_S1024x2048_S1024x2048_S1024x1024_1_1_0_0_n_n.lhsIdx_val_of_single rfl i c
/-- The right operand's index has row (i 1), the output's column: the right operand is contracted along its second
    axis too, so its rows are the output's columns … -/
theorem rhs_row (i : S1024x1024.Idx) (c : dot_S1024x2048_S1024x2048_S1024x1024_1_1_0_0_n_n.contr.Idx) :
    (dot_S1024x2048_S1024x2048_S1024x1024_1_1_0_0_n_n.rhsIdx i c 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl
/-- … and column the contraction coordinate. -/
theorem rhs_col (i : S1024x1024.Idx) (c : dot_S1024x2048_S1024x2048_S1024x1024_1_1_0_0_n_n.contr.Idx) :
    (dot_S1024x2048_S1024x2048_S1024x1024_1_1_0_0_n_n.rhsIdx i c 1).val = (c ⟨0, by decide⟩).val :=
  dot_S1024x2048_S1024x2048_S1024x1024_1_1_0_0_n_n.rhsIdx_val_of_single rfl i c

/-- One accumulation step at (p, q): the accumulator there plus the inner product of row p of the left operand with
    row q of the right one. -/
theorem acc_step_at (a b : Vec Ideal S1024x2048 .bf16) (acc : Vec Ideal S1024x1024 .f32) (p q : Fin 1024) :
    k2_pay2 (F := Ideal) a b acc (ix2 p q) = acc (ix2 p q) + ∑ k : Fin 2048, a (ix2 p k) * b (ix2 q k) := by
  unfold k2_pay2
  rw [shapeCast_self, shapeCast_self, shapeCast_self, addf_apply]
  refine congrArg (acc (ix2 p q) + ·) ?_
  simp only [matmul]
  rw [Ideal.matmul_constant_zero_apply,
    ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k :=
    funext fun c => Fin.ext (by
      match c with
      | ⟨0, _⟩ => exact lhs_row _ _
      | ⟨1, _⟩ => exact (lhs_col _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k :=
    funext fun c => Fin.ext (by
      match c with
      | ⟨0, _⟩ => exact rhs_row _ _
      | ⟨1, _⟩ => exact (rhs_col _ _).trans hk)
  rw [el, er]

/-- A column broadcast along the rows: an [a, 1] array broadcast to [a, b] reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The final rescaling at (p, q): the accumulated inner product times the left scale of row p times the right scale
    of column q. -/
theorem rescale_at (sa : Vec Ideal S1024x1 .f32) (sb : Vec Ideal S1x1024 .f32) (acc : Vec Ideal S1024x1024 .f32)
    (p q : Fin 1024) :
    k2_pay3 (F := Ideal) sa sb acc (ix2 p q) = acc (ix2 p q) * sa (ix2 p 0) * sb (ix2 0 q) := by
  unfold k2_pay3
  rw [shapeCast_self, shapeCast_self, mulf_apply, mulf_apply, broadcastTo_a1_ab_apply, broadcastTo_1b_ab_apply]

/-- A sum over 4096 positions is the sum over the first 2048 plus the sum over the last 2048 (written from 0, as two
    accumulation steps into a zero accumulator produce it). -/
theorem sum_halves (f : Fin 4096 → EReal) :
    ∑ k : Fin 4096, f k
      = (0 + ∑ k : Fin 2048, f ⟨k.val, by omega⟩) + ∑ k : Fin 2048, f ⟨2048 + k.val, by omega⟩ := by
  rw [zero_add]
  exact Fin.sum_univ_add (a := 2048) (b := 2048) f

end Cert.SymQuant.Pay

end
-- ==== Proof.MatmulArray.lean ====
/-
  The matrix-product region's value. The region walks an 8 x 4 x 2 grid: point (i, j, k) reads rows
  [1024 i, 1024 i + 1024) of the left operand and rows [1024 j, 1024 j + 1024) of the right one, both on the half
  [2048 k, 2048 k + 2048) of the contracted axis. At k = 0 the accumulator becomes 0 plus the half's inner products;
  at k = 1 the second half's inner products are added and the sum, times the rows' left scales and the columns' right
  scales, is stored into output block (i, j) and written back. So the output array ends, at (M, N), at the inner
  product over all 4096 positions of row M of the left operand with row N of the right one (the sum over 4096 positions
  split into its two halves), times the left scale of M, times the right scale of N; the four input arrays are left
  as the region finds them. The blocks are read off their arrays at block index times block size plus the coordinate
  inside the block, the index maps being decided once over the 64 grid points; the odd points' output blocks tile the
  output array.
-/
import proofs.«105469_j42520176230457_2_alg».proof.Proof.MatmulRegionIdeal
import proofs.«105469_j42520176230457_2_alg».proof.Proof.MatmulPieces
import proofs.«105469_j42520176230457_2_alg».proof.Proof.PayloadsMatmul
import proofs.«105469_j42520176230457_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand Cert.SymQuant.Pay
open Idealize.ShloMosaic Idealize.ShloMosaic.TcCoe Idealize.ShloMosaic.Tactic Idealize.SL.Sem
open Idealize.ShloMosaic.ValueIdx
open Idealize.ShloMosaic.Pipeline (Dat)

/-! ## The index maps, decided once over the grid -/

/-- Point t of the 8 x 4 x 2 grid has coordinates (t / 8, t / 2 mod 4, t mod 2) = (i, j, k). The left operand's block
    is (i, k), the right one's (j, k), the left scales' (i, 0), the right scales' (0, j) and the output's (i, j). -/
theorem idx_facts : ∀ t : Fin cfg2.N,
    win2_0.index t (0 : Fin 2) = t.val / 8 ∧ win2_0.index t (1 : Fin 2) = t.val % 2
    ∧ win2_1.index t (0 : Fin 2) = t.val / 2 % 4 ∧ win2_1.index t (1 : Fin 2) = t.val % 2
    ∧ win2_2.index t (0 : Fin 2) = t.val / 8 ∧ win2_2.index t (1 : Fin 2) = 0
    ∧ win2_3.index t (0 : Fin 2) = 0 ∧ win2_3.index t (1 : Fin 2) = t.val / 2 % 4
    ∧ win2_4.index t (0 : Fin 2) = t.val / 8 ∧ win2_4.index t (1 : Fin 2) = t.val / 2 % 4 :=
  (by decide +kernel : ∀ t : Fin grid2.N, _)

/-! ## The blocks, read off their arrays -/

section Blocks
variable {F : FTy → Type} [FloatOps F]
variable (V : (c : Dev nD) → (b : Ref sig .tc) → Buf (Elt F) ((c : Thread nD τ).loc b))

/-- An entry of a block sits in its array at block index times block size plus its own coordinate, on each axis:
    the left operand's block, -/
theorem iblk2_0_at (c : Dev nD) (t : Fin cfg2.N) (p : Fin 1024) (k : Fin 2048) (M : Fin 8192) (K : Fin 4096)
    (hM : win2_0.index t (0 : Fin 2) * 1024 + p.val = M.val) (hK : win2_0.index t (1 : Fin 2) * 2048 + k.val = K.val) :
    iblk2 V c 0 t (ix2 p k) = V c main_v0_0 (ix2 M K) := by
  unfold iblk2
  rw [View.read_apply]
  show V c main_v0_0 _ = V c main_v0_0 _
  congr 1
  funext a
  apply Fin.ext
  match a with
  | ⟨0, _⟩ => show win2_0.index t (0 : Fin 2) * 1024 + 1 * p.val = M.val; omega
  | ⟨1, _⟩ => show win2_0.index t (1 : Fin 2) * 2048 + 1 * k.val = K.val; omega

/-- the right operand's, -/
theorem iblk2_1_at (c : Dev nD) (t : Fin cfg2.N) (p : Fin 1024) (k : Fin 2048) (M : Fin 4096) (K : Fin 4096)
    (hM : win2_1.index t (0 : Fin 2) * 1024 + p.val = M.val) (hK : win2_1.index t (1 : Fin 2) * 2048 + k.val = K.val) :
    iblk2 V c 1 t (ix2 p k) = V c main_v1_0 (ix2 M K) := by
  unfold iblk2
  rw [View.read_apply]
  show V c main_v1_0 _ = V c main_v1_0 _
  congr 1
  funext a
  apply Fin.ext
  match a with
  | ⟨0, _⟩ => show win2_1.index t (0 : Fin 2) * 1024 + 1 * p.val = M.val; omega
  | ⟨1, _⟩ => show win2_1.index t (1 : Fin 2) * 2048 + 1 * k.val = K.val; omega

/-- the column of left scales', -/
theorem iblk2_2_at (c : Dev nD) (t : Fin cfg2.N) (p : Fin 1024) (k : Fin 1) (M : Fin 8192) (K : Fin 1)
    (hM : win2_2.index t (0 : Fin 2) * 1024 + p.val = M.val) (hK : win2_2.index t (1 : Fin 2) * 1 + k.val = K.val) :
    iblk2 V c 2 t (ix2 p k) = V c main_v0_1 (ix2 M K) := by
  unfold iblk2
  rw [View.read_apply]
  show V c main_v0_1 _ = V c main_v0_1 _
  congr 1
  funext a
  apply Fin.ext
  match a with
  | ⟨0, _⟩ => show win2_2.index t (0 : Fin 2) * 1024 + 1 * p.val = M.val; omega
  | ⟨1, _⟩ => show win2_2.index t (1 : Fin 2) * 1 + 1 * k.val = K.val; omega

/-- the row of right scales'. -/
theorem iblk2_3_at (c : Dev nD) (t : Fin cfg2.N) (p : Fin 1) (k : Fin 1024) (M : Fin 1) (K : Fin 4096)
    (hM : win2_3.index t (0 : Fin 2) * 1 + p.val = M.val) (hK : win2_3.index t (1 : Fin 2) * 1024 + k.val = K.val) :
    iblk2 V c 3 t (ix2 p k) = V c main_v2 (ix2 M K) := by
  unfold iblk2
  rw [View.read_apply]
  show V c main_v2 _ = V c main_v2 _
  congr 1
  funext a
  apply Fin.ext
  match a with
  | ⟨0, _⟩ => show win2_3.index t (0 : Fin 2) * 1 + 1 * p.val = M.val; omega
  | ⟨1, _⟩ => show win2_3.index t (1 : Fin 2) * 1024 + 1 * k.val = K.val; omega

/-! ## What the accumulator and the output block hold after a point -/

/-- After an even position (a first half): the half's product added to the zero block. -/
theorem acc_even (c : Dev nD) (n : ℕ) (hn : n < cfg2.N) (h0 : n % 2 = 0) :
    (outsAt2 V c n hn).2 = k2_pay2 (iblk2 V c 0 ⟨n, hn⟩) (iblk2 V c 1 ⟨n, hn⟩) (k2_pay1 (F := F)) := by
  have h1 : ¬n % 2 = 1 := by omega
  have e := sout2_A_0_eq (F := F) c (grid2.coords ⟨n, hn⟩) (ms2_0 ⟨n, hn⟩) (hs2_0 ⟨n, hn⟩) (ms2_1 ⟨n, hn⟩) (hs2_1 ⟨n, hn⟩)
    (ms2_2 ⟨n, hn⟩) (hs2_2 ⟨n, hn⟩) (ms2_3 ⟨n, hn⟩) (hs2_3 ⟨n, hn⟩) (ms2_4 ⟨n, hn⟩) (hs2_4 ⟨n, hn⟩) scM2_0
    (Memref.isWhole_whole cc2_scratch0) ((hcond2_0 ⟨n, hn⟩).mpr h0) (fun h => h1 ((hcond2_1 ⟨n, hn⟩).mp h))
    (iblk2 V c 0 ⟨n, hn⟩) (iblk2 V c 1 ⟨n, hn⟩) (iblk2 V c 2 ⟨n, hn⟩) (iblk2 V c 3 ⟨n, hn⟩)
  have e2 : outsAt2 V c n hn = _ := outsAt2_A V c ⟨n, hn⟩ h0 h1
  rw [e2]
  dsimp only
  exact e

/-- After an odd point (a second half; the point before it is the first half of the same output block): the output
    block holds the two halves' products, added in turn to the zero block, rescaled. -/
theorem out_odd (c : Dev nD) (t : Fin cfg2.N) (h1 : t.val % 2 = 1) (ht' : t.val - 1 < cfg2.N) :
    (outsAt2 V c t.val t.isLt).1
      = k2_pay3 (iblk2 V c 2 t) (iblk2 V c 3 t) (k2_pay2 (iblk2 V c 0 t) (iblk2 V c 1 t)
          (k2_pay2 (iblk2 V c 0 ⟨t.val - 1, ht'⟩) (iblk2 V c 1 ⟨t.val - 1, ht'⟩) (k2_pay1 (F := F)))) := by
  have h0 : ¬t.val % 2 = 0 := by omega
  have e := out2_B_4_eq (F := F) c (grid2.coords t) (ms2_0 t) (hs2_0 t) (ms2_1 t) (hs2_1 t) (ms2_2 t) (hs2_2 t) (ms2_3 t) (hs2_3 t)
    (ms2_4 t) (hs2_4 t) scM2_0 (Memref.isWhole_whole cc2_scratch0) (fun h => h0 ((hcond2_0 t).mp h)) ((hcond2_1 t).mpr h1)
    (iblk2 V c 0 t) (iblk2 V c 1 t) (iblk2 V c 2 t) (iblk2 V c 3 t)
    (outsAt2 V c (t.val - 1) (Nat.lt_of_le_of_lt (Nat.sub_le _ _) t.isLt)).2
  rw [outsAt2_B V c t h0 h1]
  dsimp only
  rw [e, acc_even V c (t.val - 1) ht' (by omega)]

end Blocks

/-! ## The region's result, index by index, at the ideal instance -/

section AtIdeal
variable (V : (c : Dev nD) → (b : Ref sig .tc) → Buf (Elt Ideal) ((c : Thread nD τ).loc b))

/-- Two accumulation steps from the zero block, then the rescaling, read at (p, q): the two halves' inner products,
    added in turn to 0, times the left scale of row p and the right scale of column q. -/
theorem odd_value_at (x0 x1 x0' x1' : Vec Ideal S1024x2048 .bf16) (x2 : Vec Ideal S1024x1 .f32)
    (x3 : Vec Ideal S1x1024 .f32) (p q : Fin 1024) :
    k2_pay3 (F := Ideal) x2 x3 (k2_pay2 x0 x1 (k2_pay2 x0' x1' (k2_pay1 (F := Ideal)))) (ix2 p q)
      = ((0 + ∑ k : Fin 2048, x0' (ix2 p k) * x1' (ix2 q k)) + ∑ k : Fin 2048, x0 (ix2 p k) * x1 (ix2 q k))
          * x2 (ix2 p 0) * x3 (ix2 0 q) := by
  rw [rescale_at, acc_step_at, acc_step_at, acc_zero_at]

/-- The region's result as one function of the four arrays it reads: at (M, N) the inner product of row M of the
    left operand with row N of the right one, times the left scale of M, times the right scale of N. -/
def prodRescaled (qa : S8192x4096.Idx → EReal) (qb : S4096x4096.Idx → EReal) (sa : S8192x1.Idx → EReal)
    (sb : S1x4096.Idx → EReal) : S8192x4096.Idx → EReal :=
  fun i => ((∑ k : Fin 4096, qa (ix2 (⟨(i 0).val, idx2_lt0 i⟩ : Fin 8192) k) * qb (ix2 (⟨(i 1).val, idx2_lt1 i⟩ : Fin 4096) k))
      * sa (ix2 (⟨(i 0).val, idx2_lt0 i⟩ : Fin 8192) 0)) * sb (ix2 0 (⟨(i 1).val, idx2_lt1 i⟩ : Fin 4096))

/-- The same at the arrays as the region finds them. -/
abbrev result (c : Dev nD) : S8192x4096.Idx → EReal :=
  prodRescaled (V c main_v0_0) (V c main_v1_0) (V c main_v0_1) (V c main_v2)

/-- A block entry read as an entry of the array's typed contents: the left operand's, -/
theorem qa_at (c : Dev nD) (qa : S8192x4096.Idx → EReal) (hqa : (V c main_v0_0 : S8192x4096.Idx → EReal) = qa)
    (t : Fin cfg2.N) (p : Fin 1024) (k : Fin 2048) (M : Fin 8192) (K : Fin 4096)
    (hM : win2_0.index t (0 : Fin 2) * 1024 + p.val = M.val) (hK : win2_0.index t (1 : Fin 2) * 2048 + k.val = K.val) :
    (iblk2 V c 0 t : Vec Ideal S1024x2048 .bf16) (ix2 p k) = qa (ix2 M K) :=
  (iblk2_0_at V c t p k M K hM hK).trans (congrFun hqa _)
/-- the right operand's, -/
theorem qb_at (c : Dev nD) (qb : S4096x4096.Idx → EReal) (hqb : (V c main_v1_0 : S4096x4096.Idx → EReal) = qb)
    (t : Fin cfg2.N) (p : Fin 1024) (k : Fin 2048) (M : Fin 4096) (K : Fin 4096)
    (hM : win2_1.index t (0 : Fin 2) * 1024 + p.val = M.val) (hK : win2_1.index t (1 : Fin 2) * 2048 + k.val = K.val) :
    (iblk2 V c 1 t : Vec Ideal S1024x2048 .bf16) (ix2 p k) = qb (ix2 M K) :=
  (iblk2_1_at V c t p k M K hM hK).trans (congrFun hqb _)
/-- the left scales', -/
theorem sa_at (c : Dev nD) (sa : S8192x1.Idx → EReal) (hsa : (V c main_v0_1 : S8192x1.Idx → EReal) = sa)
    (t : Fin cfg2.N) (p : Fin 1024) (k : Fin 1) (M : Fin 8192) (K : Fin 1)
    (hM : win2_2.index t (0 : Fin 2) * 1024 + p.val = M.val) (hK : win2_2.index t (1 : Fin 2) * 1 + k.val = K.val) :
    (iblk2 V c 2 t : Vec Ideal S1024x1 .f32) (ix2 p k) = sa (ix2 M K) :=
  (iblk2_2_at V c t p k M K hM hK).trans (congrFun hsa _)
/-- the right scales'. -/
theorem sb_at (c : Dev nD) (sb : S1x4096.Idx → EReal) (hsb : (V c main_v2 : S1x4096.Idx → EReal) = sb)
    (t : Fin cfg2.N) (p : Fin 1) (k : Fin 1024) (M : Fin 1) (K : Fin 4096)
    (hM : win2_3.index t (0 : Fin 2) * 1 + p.val = M.val) (hK : win2_3.index t (1 : Fin 2) * 1024 + k.val = K.val) :
    (iblk2 V c 3 t : Vec Ideal S1x1024 .f32) (ix2 p k) = sb (ix2 M K) :=
  (iblk2_3_at V c t p k M K hM hK).trans (congrFun hsb _)

/-- What an odd point t = (i, j, 1) leaves in the output block at (p, q) is the result at (1024 i + p, 1024 j + q):
    the even point before it read the first halves of the same two rows, this one the second halves. -/
theorem point_value (c : Dev nD) (qa : S8192x4096.Idx → EReal) (qb : S4096x4096.Idx → EReal) (sa : S8192x1.Idx → EReal)
    (sb : S1x4096.Idx → EReal) (hqa : (V c main_v0_0 : S8192x4096.Idx → EReal) = qa)
    (hqb : (V c main_v1_0 : S4096x4096.Idx → EReal) = qb) (hsa : (V c main_v0_1 : S8192x1.Idx → EReal) = sa)
    (hsb : (V c main_v2 : S1x4096.Idx → EReal) = sb)
    (t : Fin cfg2.N) (h1 : t.val % 2 = 1) (p q : Fin 1024) (M : Fin 8192) (N : Fin 4096)
    (hM : t.val / 8 * 1024 + p.val = M.val) (hN : t.val / 2 % 4 * 1024 + q.val = N.val) :
    (outsAt2 V c t.val t.isLt).1 (ix2 p q)
      = ((∑ k : Fin 4096, qa (ix2 M k) * qb (ix2 N k)) * sa (ix2 M 0)) * sb (ix2 0 N) := by
  have hN64 : cfg2.N = 64 := N_2
  have ht : t.val < 64 := lt_of_lt_of_eq t.isLt hN64
  have ht' : t.val - 1 < cfg2.N := lt_of_le_of_lt (Nat.sub_le _ _) t.isLt
  obtain ⟨a0, a1, b0, b1, c0, c1, d0, d1, -, -⟩ := idx_facts t
  have a0' : win2_0.index ⟨t.val - 1, ht'⟩ (0 : Fin 2) = (t.val - 1) / 8 := (idx_facts ⟨t.val - 1, ht'⟩).1
  have a1' : win2_0.index ⟨t.val - 1, ht'⟩ (1 : Fin 2) = (t.val - 1) % 2 := (idx_facts ⟨t.val - 1, ht'⟩).2.1
  have b0' : win2_1.index ⟨t.val - 1, ht'⟩ (0 : Fin 2) = (t.val - 1) / 2 % 4 := (idx_facts ⟨t.val - 1, ht'⟩).2.2.1
  have b1' : win2_1.index ⟨t.val - 1, ht'⟩ (1 : Fin 2) = (t.val - 1) % 2 := (idx_facts ⟨t.val - 1, ht'⟩).2.2.2.1
  have hMl : M.val < 8192 := M.isLt
  have hNl : N.val < 4096 := N.isLt
  refine (congrFun (out_odd V c t h1 ht') (ix2 p q)).trans ?_
  refine (odd_value_at (iblk2 V c 0 t) (iblk2 V c 1 t) (iblk2 V c 0 ⟨t.val - 1, ht'⟩) (iblk2 V c 1 ⟨t.val - 1, ht'⟩)
    (iblk2 V c 2 t) (iblk2 V c 3 t) p q).trans ?_
  rw [sum_halves (fun k => qa (ix2 M k) * qb (ix2 N k))]
  rw [sa_at V c sa hsa t p 0 M 0 (by omega) (by show _ = 0; omega),
    sb_at V c sb hsb t 0 q 0 N (by show _ = 0; omega) (by omega)]
  refine congrArg₂ (· * ·) (congrArg₂ (· * ·) (congrArg₂ (· + ·) (congrArg (0 + ·) (Finset.sum_congr rfl fun k _ => ?_))
    (Finset.sum_congr rfl fun k _ => ?_)) rfl) rfl
  · rw [qa_at V c qa hqa ⟨t.val - 1, ht'⟩ p k M ⟨k.val, by omega⟩ (by omega) (by show _ = k.val; omega),
      qb_at V c qb hqb ⟨t.val - 1, ht'⟩ q k N ⟨k.val, by omega⟩ (by omega) (by show _ = k.val; omega)]
  · rw [qa_at V c qa hqa t p k M ⟨2048 + k.val, by omega⟩ (by omega) (by show _ = 2048 + k.val; omega),
      qb_at V c qb hqb t q k N ⟨2048 + k.val, by omega⟩ (by omega) (by show _ = 2048 + k.val; omega)]

/-- An index of the output array is in point t's block iff each coordinate is in the block's range on its axis. -/
theorem mem_blk (t : Fin cfg2.N) (i : S8192x4096.Idx) :
    i ∈ ((cfg2.win 4).blk t).view.set
      ↔ ∀ a : Fin 2, win2_4.index t a * S1024x1024.size a ≤ (i a).val
          ∧ (i a).val < win2_4.index t a * S1024x1024.size a + S1024x1024.size a := by
  show i ∈ ((View.whole main_v3).slice (win2_4.rect t)).set ↔ _
  rw [View.set_slice_whole, Rect.mem_set_unit]
  exact Iff.rfl

/-- What an odd point writes back is its block of the result. -/
theorem flushed_eq (c : Dev nD) (t : Fin cfg2.N) (hf : (cfg2.win 4).flush t = true) :
    (dat2 V c).flushed 4 t = ((cfg2.win 4).blk t).view.read (Elt Ideal) (result V c) := by
  have h1 : t.val % 2 = 1 := (flush2_4 t).mp hf
  have ht : t.val < 64 := lt_of_lt_of_eq t.isLt N_2
  obtain ⟨-, -, -, -, -, -, -, -, e0, e1⟩ := idx_facts t
  show (cfg2.win 4).cut (grid2.coords t) ((dat2 V c).after 4 t) = _
  rw [after2_4]
  refine funext fun (j : S1024x1024.Idx) => ?_
  obtain ⟨p, q, rfl⟩ : ∃ (p q : Fin 1024), j = ix2 p q := ⟨j 0, j 1, eq_ix2 j⟩
  rw [View.read_apply]
  exact point_value V c _ _ _ _ rfl rfl rfl rfl t h1 p q ⟨_, idx2_lt0 _⟩ ⟨_, idx2_lt1 _⟩
    (by show _ = win2_4.index t (0 : Fin 2) * 1024 + 1 * p.val; omega)
    (by show _ = win2_4.index t (1 : Fin 2) * 1024 + 1 * q.val; omega)

/-- Every index (M, N) of the output array is in the block of the odd point (M / 1024, N / 1024, 1). -/
theorem cover (i : S8192x4096.Idx) :
    ∃ t : Fin cfg2.N, (cfg2.win 4).flush t = true ∧ i ∈ ((cfg2.win 4).blk t).view.set := by
  have hi0 : (i 0).val < 8192 := idx2_lt0 i
  have hi1 : (i 1).val < 4096 := idx2_lt1 i
  have hN64 : cfg2.N = 64 := N_2
  obtain ⟨t, tv⟩ : ∃ t : Fin cfg2.N, t.val = ((i 0).val / 1024 * 4 + (i 1).val / 1024) * 2 + 1 :=
    ⟨⟨((i 0).val / 1024 * 4 + (i 1).val / 1024) * 2 + 1, by rw [hN64]; omega⟩, rfl⟩
  obtain ⟨-, -, -, -, -, -, -, -, e0, e1⟩ := idx_facts t
  refine ⟨t, (flush2_4 t).mpr (by omega), ?_⟩
  rw [mem_blk]
  intro a
  match a with
  | ⟨0, _⟩ =>
    show win2_4.index t (0 : Fin 2) * 1024 ≤ (i 0).val ∧ (i 0).val < win2_4.index t (0 : Fin 2) * 1024 + 1024
    omega
  | ⟨1, _⟩ =>
    show win2_4.index t (1 : Fin 2) * 1024 ≤ (i 1).val ∧ (i 1).val < win2_4.index t (1 : Fin 2) * 1024 + 1024
    omega

/-- So the output array ends holding the result: the odd points' blocks tile it. -/
theorem final (c : Dev nD) : (dat2 V c).arrAt 4 cfg2.N = result V c :=
  (dat2 V c).arrAt_eq_of_cover 4 (result V c) (flushed_eq V c) cover

/-- THE REGION'S VALUE at (M, N): the inner product of row M of the left operand with row N of the right one, times
    the left scale of M, times the right scale of N, the four arrays being what the region finds. -/
theorem final_out (c : Dev nD) (qa : S8192x4096.Idx → EReal) (qb : S4096x4096.Idx → EReal) (sa : S8192x1.Idx → EReal)
    (sb : S1x4096.Idx → EReal) (hqa : (V c main_v0_0 : S8192x4096.Idx → EReal) = qa)
    (hqb : (V c main_v1_0 : S4096x4096.Idx → EReal) = qb) (hsa : (V c main_v0_1 : S8192x1.Idx → EReal) = sa)
    (hsb : (V c main_v2 : S1x4096.Idx → EReal) = sb) (M : Fin 8192) (N : Fin 4096) :
    (Cert.KernelIdeal.Hand.dat2 V c).arrAt 4 cfg2.N (ix2 M N)
      = ((∑ k : Fin 4096, qa (ix2 M k) * qb (ix2 N k)) * sa (ix2 M 0)) * sb (ix2 0 N) := by
  subst hqa hqb hsa hsb
  exact congrFun (final V c) (ix2 M N)

end AtIdeal

/-! ## The four inputs are left as found -/

section Kept
variable {F : FTy → Type} [FloatOps F]
variable (V : (c : Dev nD) → (b : Ref sig .tc) → Buf (Elt F) ((c : Thread nD τ).loc b))

theorem kept2_0 (c : Dev nD) : (dat2 V c).arrAt 0 cfg2.N = V c main_v0_0 :=
  ((dat2 V c).arrAt_in 0 rfl _).trans (A_eq2 V c 0)
theorem kept2_1 (c : Dev nD) : (dat2 V c).arrAt 1 cfg2.N = V c main_v1_0 :=
  ((dat2 V c).arrAt_in 1 rfl _).trans (A_eq2 V c 1)
theorem kept2_2 (c : Dev nD) : (dat2 V c).arrAt 2 cfg2.N = V c main_v0_1 :=
  ((dat2 V c).arrAt_in 2 rfl _).trans (A_eq2 V c 2)
theorem kept2_3 (c : Dev nD) : (dat2 V c).arrAt 3 cfg2.N = V c main_v2 :=
  ((dat2 V c).arrAt_in 3 rfl _).trans (A_eq2 V c 3)

end Kept

end Cert.KernelIdeal.HandValue

end
-- ==== Proof.RefValue.lean ====
/-
  The reference program at the ideal instance, read at one element of its result.

  The reference quantizes A : [8192, 4096] and B : [4096, 4096] row by row — a row's scale is its largest absolute
  value over 127, floored; an entry is divided by its row's scale, rounded to the nearest integer (ties to even) and
  clipped to [-128, 127] —, contracts the quantized rows (the einsum mk,nk->mn) and multiplies the inner product by
  the scale of A's row and then by the scale of B's row.  Read index by index, the result at (m, n) is the
  specification's `out` of the two argument arrays:

  * a row's largest absolute value is the host reduction over axis 1, a fold of max from -inf over the row's positions;
  * the keepdims column [rows, 1] holding the scales is read at (r, 0), whichever way the program broadcasts or
    transposes it afterwards;
  * the contraction's element is the sum over k of the quantized A at (m, k) times the quantized B at (n, k).

  The scalar operations (absolute value, quotient, rounding) are never opened: both sides apply the same ones.
-/
import proofs.«105469_j42520176230457_2_alg».proof.Defs
import proofs.«105469_j42520176230457_2_alg».proof.Proof.Gen.ReferenceIdeal.Read
import proofs.«105469_j42520176230457_2_alg».proof.Proof.Gen.Pre_finite_inputs
import proofs.«105469_j42520176230457_2_alg».proof.Proof.Spec

noncomputable section

namespace Cert.SymQuant.Ref

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## A row's largest absolute value -/

/-- Removing axis 1 of an [8192, 4096] array leaves [8192] … -/
theorem reduces_a : S8192x4096.Reduces [1] S8192 := by decide
/-- … and of a [4096, 4096] array leaves [4096]. -/
theorem reduces_b : S4096x4096.Reduces [1] S4096 := by decide

/-- Row `r` with the column `k` put back on axis 1 is the position (r, k). -/
theorem lift_a (r : Fin 8192) (k : Fin 4096) : reduces_a.lift (ix1 r) k = ix2 r k :=
  funext fun c => Fin.ext (by match c with | ⟨0, _⟩ => rfl | ⟨1, _⟩ => rfl)

theorem lift_b (r : Fin 4096) (k : Fin 4096) : reduces_b.lift (ix1 r) k = ix2 r k :=
  funext fun c => Fin.ext (by match c with | ⟨0, _⟩ => rfl | ⟨1, _⟩ => rfl)

/-- The reduction of |A| over axis 1, at row `r`: the fold of max from -inf over the row's absolute values. -/
theorem absmax_a (a : (⟨S8192x4096, .f32⟩ : BufTy).Contents (Elt Ideal)) (r : Fin 8192) :
    val_main_v1 (F := Ideal) a (ix1 r) = rowAbsMax fun k => a (ix2 r k) := by
  unfold val_main_v1
  refine (Host.reduce_eq_fold_single (FloatOps.maximumf (F := Ideal) (φ := .f32)) (val_main_v0 (F := Ideal) a)
    (val_main_cst (F := Ideal)) reducesTo_S8192x4096_S8192_d1 reduces_a h_S_ (ix1 r)).trans ?_
  have hg : (val_main_v0 (F := Ideal) a ∘ reduces_a.lift (ix1 r))
      = fun k : Fin 4096 => FloatOps.absf (F := Ideal) (φ := .f32) (a (ix2 r k)) :=
    funext fun (k : Fin 4096) => (congrArg (val_main_v0 (F := Ideal) a) (lift_a r k)).trans rfl
  rw [hg]; rfl

theorem absmax_b (b : (⟨S4096x4096, .f32⟩ : BufTy).Contents (Elt Ideal)) (r : Fin 4096) :
    val_main_v12 (F := Ideal) b (ix1 r) = rowAbsMax fun k => b (ix2 r k) := by
  unfold val_main_v12
  refine (Host.reduce_eq_fold_single (FloatOps.maximumf (F := Ideal) (φ := .f32)) (val_main_v11 (F := Ideal) b)
    (val_main_cst_4 (F := Ideal)) reducesTo_S4096x4096_S4096_d1 reduces_b h_S_ (ix1 r)).trans ?_
  have hg : (val_main_v11 (F := Ideal) b ∘ reduces_b.lift (ix1 r))
      = fun k : Fin 4096 => FloatOps.absf (F := Ideal) (φ := .f32) (b (ix2 r k)) :=
    funext fun (k : Fin 4096) => (congrArg (val_main_v11 (F := Ideal) b) (lift_b r k)).trans rfl
  rw [hg]; rfl

/-! ## A row's scale: the keepdims column at (r, 0) -/

/-- The column of A's scales at (r, 0) is the scale of row `r`: the row's largest absolute value over 127, floored. -/
theorem scale_a (a : (⟨S8192x4096, .f32⟩ : BufTy).Contents (Elt Ideal)) (r : Fin 8192) (z : Fin 1) :
    val_main_v6 (F := Ideal) a (ix2 r z) = rowScale fun k => a (ix2 r k) := by
  have e2 : idx_main_v2 (ix2 r z) = ix1 r := funext fun c => match c with | ⟨0, _⟩ => rfl
  rw [val_main_v6_apply, val_main_v4_apply, val_main_v2_apply, val_main_v3_apply, val_main_v5_apply,
    val_main_cst_0_apply, val_main_cst_1_apply, e2, absmax_a]
  rfl

theorem scale_b (b : (⟨S4096x4096, .f32⟩ : BufTy).Contents (Elt Ideal)) (r : Fin 4096) (z : Fin 1) :
    val_main_v17 (F := Ideal) b (ix2 r z) = rowScale fun k => b (ix2 r k) := by
  have e13 : idx_main_v13 (ix2 r z) = ix1 r := funext fun c => match c with | ⟨0, _⟩ => rfl
  rw [val_main_v17_apply, val_main_v15_apply, val_main_v13_apply, val_main_v14_apply, val_main_v16_apply,
    val_main_cst_5_apply, val_main_cst_6_apply, e13, absmax_b]
  rfl

/-! ## A quantized entry -/

/-- The quantized A at (m, k): the entry over its row's scale, rounded to nearest even, clipped to [-128, 127]. -/
theorem q_a (a : (⟨S8192x4096, .f32⟩ : BufTy).Contents (Elt Ideal)) (m : Fin 8192) (k : Fin 4096) :
    val_main_v10 (F := Ideal) a (ix2 m k) = qrow (fun k => a (ix2 m k)) k := by
  have e7 : idx_main_v7 (ix2 m k) = ix2 m (⟨0, Nat.one_pos⟩ : Fin 1) :=
    funext fun c => match c with | ⟨0, _⟩ => rfl | ⟨1, _⟩ => rfl
  rw [val_main_v10_apply, val_main_call1_v4_apply, val_main_call1_v3_apply, val_main_cst_3_apply,
    val_main_call1_v2_apply, val_main_call1_v1_apply, val_main_call1_v0_apply, val_main_cst_2_apply,
    val_main_v9_apply, val_main_v8_apply, val_main_v7_apply, e7, scale_a]
  rfl

theorem q_b (b : (⟨S4096x4096, .f32⟩ : BufTy).Contents (Elt Ideal)) (n : Fin 4096) (k : Fin 4096) :
    val_main_v21 (F := Ideal) b (ix2 n k) = qrow (fun k => b (ix2 n k)) k := by
  have e18 : idx_main_v18 (ix2 n k) = ix2 n (⟨0, Nat.one_pos⟩ : Fin 1) :=
    funext fun c => match c with | ⟨0, _⟩ => rfl | ⟨1, _⟩ => rfl
  rw [val_main_v21_apply, val_main_call3_v4_apply, val_main_call3_v3_apply, val_main_cst_8_apply,
    val_main_call3_v2_apply, val_main_call3_v1_apply, val_main_call3_v0_apply, val_main_cst_7_apply,
    val_main_v20_apply, val_main_v19_apply, val_main_v18_apply, e18, scale_b]
  rfl

/-! ## The contraction, and the result -/

/-- The contraction at (m, n): the inner product of the quantized row m of A and the quantized row n of B. -/
theorem dot_at (a : (⟨S8192x4096, .f32⟩ : BufTy).Contents (Elt Ideal)) (b : (⟨S4096x4096, .f32⟩ : BufTy).Contents (Elt Ideal))
    (m : Fin 8192) (n : Fin 4096) :
    val_main_v22 (F := Ideal) a b (ix2 m n)
      = ∑ k : Fin 4096, qrow (fun k => a (ix2 m k)) k * qrow (fun k => b (ix2 n k)) k := by
  rw [val_main_v22_apply]
  refine Finset.sum_congr rfl fun k _ => ?_
  have el : lidx_main_v22 (ix2 m n) k = ix2 m k := funext fun c => match c with | ⟨0, _⟩ => rfl | ⟨1, _⟩ => rfl
  have er : ridx_main_v22 (ix2 m n) k = ix2 n k := funext fun c => match c with | ⟨0, _⟩ => rfl | ⟨1, _⟩ => rfl
  rw [el, er, q_a, q_b]

/-- THE REFERENCE'S RESULT AT (m, n) is the specification's: the quantized rows' inner product, times the scale of
    A's row m, times the scale of B's row n. -/
theorem result_at (a : (⟨S8192x4096, .f32⟩ : BufTy).Contents (Elt Ideal)) (b : (⟨S4096x4096, .f32⟩ : BufTy).Contents (Elt Ideal))
    (m : Fin 8192) (n : Fin 4096) :
    Cert.ReferenceIdeal.Read.val_main_v27 (F := Ideal) a b (ix2 m n)
      = Cert.SymQuant.out (fun r k => a (ix2 r k)) (fun r k => b (ix2 r k)) m n := by
  have e23 : idx_main_v23 (ix2 m n) = ix2 m (⟨0, Nat.one_pos⟩ : Fin 1) :=
    funext fun c => match c with | ⟨0, _⟩ => rfl | ⟨1, _⟩ => rfl
  have e25 : idx_main_v25 (idx_main_v26 (ix2 m n)) = ix2 n (⟨0, Nat.one_pos⟩ : Fin 1) :=
    funext fun c => match c with | ⟨0, _⟩ => rfl | ⟨1, _⟩ => rfl
  rw [val_main_v27_apply, val_main_v24_apply, val_main_v23_apply, val_main_v26_apply, val_main_v25_apply,
    e23, e25, scale_a, scale_b, dot_at]
  rfl

/-! ## The reference's run, and its frame -/

/-- Every weakly fair execution of the reference terminates with its result array at the stage read above, of the
    arguments' launch contents, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v27)
          = Cert.ReferenceIdeal.Read.val_main_v27 (F := Ideal)
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) :=
  (θ_run Cert.ReferenceIdeal.defs _ _).mono
    (fun _ h c => ⟨(h c).1.trans (Cert.ReferenceIdeal.Read.val_main_v27_eq (F := Ideal) _ _), (h c).2⟩)
    (Cert.ReferenceIdeal.Value.run (F := Ideal) m' ρ')

/-- The reference runs, and its argument arrays end unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.SymQuant.Ref

end
-- ==== Proof.lean ====
/-
  The five claims of this certificate, assembled.

  The kernel program quantizes each argument matrix row by row in a pallas_call of its own (a row's scale is its
  largest absolute value over 127, floored; an entry is x / scale rounded to the nearest integer and clipped to
  [-128, 127]), transposes the second matrix's column of scales on the host, and in a third pallas_call multiplies the
  quantized matrices block by block: the contracted axis of 4096 is walked in two halves of 2048, the products
  accumulated in a scratch buffer that is cleared at the first half and, at the second, rescaled by the row's and the
  column's scales into the output block. The reference computes the same quantization with whole-array operations,
  one matrix product over all 4096 positions, and the same two rescalings.

  At the ideal instance both results are, index by index, the function `Cert.SymQuant.out` of the two arguments: a
  change of float format is the identity there, a matrix product into a zero accumulator and the host's product are
  the same finite sum, and a sum of 4096 terms is the sum of its two halves of 2048 (addition of extended reals is
  associative and commutative; no finiteness is needed, and the precondition is never opened).

  The three frames: the kernel program's, at the word-level instance and at the ideal one, is the several-regions
  launch theorem over the three regions' proof data (the accumulator carried from grid point to grid point by the
  third region's invariant); the reference's is its run with the result dropped. The ideal pass rewrote nothing, so
  the kernel's idealization is its own text and there is nothing to preserve.
-/
import proofs.«105469_j42520176230457_2_alg».proof.Defs
import proofs.«105469_j42520176230457_2_alg».proof.Proof.Gen.Kernel
import proofs.«105469_j42520176230457_2_alg».proof.Proof.Gen.KernelIdeal
import proofs.«105469_j42520176230457_2_alg».proof.Proof.Gen.ReferenceIdeal
import proofs.«105469_j42520176230457_2_alg».proof.Proof.Gen.Pre_finite_inputs
import proofs.«105469_j42520176230457_2_alg».proof.Proof.RunBits
import proofs.«105469_j42520176230457_2_alg».proof.Proof.RunIdeal
import proofs.«105469_j42520176230457_2_alg».proof.Proof.KernelValue
import proofs.«105469_j42520176230457_2_alg».proof.Proof.MatmulArray
import proofs.«105469_j42520176230457_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program, read at the word level, runs to the end and leaves both arguments as launched. -/
theorem frame_kernel : Cert.frame_Kernel := fun m ρ _ => Cert.Kernel.Hand.frame (F := Bits) m ρ

/-- The same program read at the ideal instance. -/
theorem frame_kernelIdeal : Cert.frame_KernelIdeal := fun m ρ _ => Cert.KernelIdeal.Hand.frame (F := Ideal) m ρ

/-- The ideal pass rewrote no operation. -/
theorem preserves : Cert.preserves_Kernel_KernelIdeal := trivial

/-- Both programs end with the result array at the reference's term of the arguments: the kernel program's final
    array is `Cert.SymQuant.out` of the arguments at every index (the three regions' values composed), and so is the
    reference's term. -/
theorem algebraic : Cert.algebraic_KernelIdeal_ReferenceIdeal := by
  intro m ρ m' ρ' _ hagree
  refine ⟨fun c => Cert.ReferenceIdeal.Read.val_main_v27 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main (F := Ideal) m ρ)
    · refine (h c _ (Cert.KernelIdeal.Hand.mem_uc Cert.KernelIdeal.main_v3 (by decide))).trans (funext fun (i : Cert.KernelIdeal.S8192x4096.Idx) => ?_)
      rw [eq_ix2 i]
      exact (Cert.KernelIdeal.HandValue.result_at m ρ Cert.KernelIdeal.HandValue.final_out c (i 0) (i 1)).trans
        (Cert.SymQuant.Ref.result_at _ _ (i 0) (i 1)).symm
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
  · refine (θ_run Cert.ReferenceIdeal.defs _ _).mono (fun r h c => ⟨?_, (h c).2.1, (h c).2.2⟩) (Cert.SymQuant.Ref.run m' ρ')
    rw [(h c).1, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, Cert.SymQuant.Ref.frame_ri, preserves, algebraic⟩

end Cert.Proof

end
